-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v17_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v17_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2048x2048 : Shape := ⟨2, ![2048, 2048]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg4 : FVec F S1024x1024 .f32) (main_arg5 : FVec F S1024x1024 .f32) (main_arg6 : FVec F S1024x1024 .f32) (main_arg7 : FVec F S1024x1024 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S2x2048x1024 .f32) (main_arg1 : FVec F S2x2048x1024 .f32) (main_arg2 : FVec F S2x2048x1024 .f32) (main_arg3 : FVec F S2048x2048 .f32) (main_arg4 : FVec F S1024x1024 .f32) (main_arg5 : FVec F S1024x1024 .f32) (main_arg6 : FVec F S1024x1024 .f32) (main_arg7 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_v13 main_v16
-- ==== Kernel.lean ====
abbrev S2x2048x1024 : Shape := ⟨3, ![2, 2048, 1024]⟩
abbrev S2048x2048 : Shape := ⟨2, ![2048, 2048]⟩
abbrev S1024x1024 : Shape := ⟨2, ![1024, 1024]⟩
abbrev S4096x1024 : Shape := ⟨2, ![4096, 1024]⟩
abbrev S2x16x2048x2048 : Shape := ⟨4, ![2, 16, 2048, 2048]⟩
abbrev S1x256x128 : Shape := ⟨3, ![1, 256, 128]⟩
abbrev S1x2048x128 : Shape := ⟨3, ![1, 2048, 128]⟩
abbrev S256x2048 : Shape := ⟨2, ![256, 2048]⟩
abbrev S1x2x256x2048 : Shape := ⟨4, ![1, 2, 256, 2048]⟩
abbrev S1x256x64 : Shape := ⟨3, ![1, 256, 64]⟩
abbrev S256x64 : Shape := ⟨2, ![256, 64]⟩
abbrev S1x2048x64 : Shape := ⟨3, ![1, 2048, 64]⟩
abbrev S2048x64 : Shape := ⟨2, ![2048, 64]⟩
abbrev S256 : Shape := ⟨1, ![256]⟩
abbrev S256x1 : Shape := ⟨2, ![256, 1]⟩
abbrev S1x1x256x2048 : Shape := ⟨4, ![1, 1, 256, 2048]⟩
abbrev S256x128 : Shape := ⟨2, ![256, 128]⟩

abbrev nBuf : Space → Nat
  | .hbm => 30
  | .vmem => 32
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2048x2048, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S4096x1024, .f32⟩
  | .hbm, ⟨17, _⟩ => ⟨S4096x1024, .bf16⟩
  | .hbm, ⟨18, _⟩ => ⟨S2x2048x1024, .bf16⟩
  | .hbm, ⟨19, _⟩ => ⟨S4096x1024, .f32⟩
  | .hbm, ⟨20, _⟩ => ⟨S4096x1024, .bf16⟩
  | .hbm, ⟨21, _⟩ => ⟨S2x2048x1024, .bf16⟩
  | .hbm, ⟨22, _⟩ => ⟨S4096x1024, .f32⟩
  | .hbm, ⟨23, _⟩ => ⟨S4096x1024, .bf16⟩
  | .hbm, ⟨24, _⟩ => ⟨S2x2048x1024, .bf16⟩
  | .hbm, ⟨25, _⟩ => ⟨S2x16x2048x2048, .f32⟩
  | .hbm, ⟨26, _⟩ => ⟨S2x2048x1024, .bf16⟩
  | .hbm, ⟨27, _⟩ => ⟨S4096x1024, .bf16⟩
  | .hbm, ⟨28, _⟩ => ⟨S4096x1024, .f32⟩
  | .hbm, ⟨29, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x256x128, .bf16⟩
  | .local _ .vmem, ⟨16, _⟩ => ⟨S1x256x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S1x2048x128, .bf16⟩
  | .local _ .vmem, ⟨21, _⟩ => ⟨S256x2048, .f32⟩
  | .local _ .vmem, ⟨22, _⟩ => ⟨S256x2048, .f32⟩
  | .local _ .vmem, ⟨23, _⟩ => ⟨S1x2x256x2048, .f32⟩
  | .local _ .vmem, ⟨24, _⟩ => ⟨S1x2x256x2048, .f32⟩
  | .local _ .vmem, ⟨25, _⟩ => ⟨S1x256x128, .bf16⟩
  | .local _ .vmem, ⟨26, _⟩ => ⟨S1x256x128, .bf16⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .f32⟩
  | .local _ .vmem, ⟨31, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc3_stg5_0 : Ref sig .tc := ⟨.vmem, 25, rfl⟩
abbrev cc3_stg5_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc3_sem5_0 : DmaSem sig := 25
abbrev cc3_sem5_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem2_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![8, 2, 8], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_4 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, arg0.toNat, c0_i32.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage3_0 : Fin 2 → Memref sig .tc .vmem S1x256x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true]

abbrev stage3_3 : Fin 2 → Memref sig .tc .vmem S256x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false, false]

abbrev stage3_4 : Fin 2 → Memref sig .tc .vmem S1x2x256x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev stage3_5 : Fin 2 → Memref sig .tc .vmem S1x256x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  transposes_S1024x1024_S1024x1024_1_0 : S1024x1024.Transposes [1, 0] S1024x1024
  bitsLt_bf16_f32 : FTy.bits .bf16 < FTy.bits .f32
  shapeCasts_S2x2048x1024_S4096x1024 : S2x2048x1024.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S4096x1024_S2x2048x1024 : S4096x1024.ShapeCasts S2x2048x1024
  inb_S256x2048_S256x2048_0_0 : ∀ a, (![0, 0] : Fin 2 → Nat) a + S256x2048.size a ≤ S256x2048.size a
  h_S256x2048 : 0 < S256x2048.numel
  inb_S1x256x128_S1x256x64_0_0_0 : ∀ a, (![0, 0, 0] : Fin 3 → Nat) a + S1x256x64.size a ≤ S1x256x128.size a
  h_S1x256x64 : 0 < S1x256x64.numel
  shapeCasts_S1x256x64_S256x64 : S1x256x64.ShapeCasts S256x64
  inb_S1x2048x128_S1x2048x64_0_0_0 : ∀ a, (![0, 0, 0] : Fin 3 → Nat) a + S1x2048x64.size a ≤ S1x2048x128.size a
  h_S1x2048x64 : 0 < S1x2048x64.numel
  shapeCasts_S1x2048x64_S2048x64 : S1x2048x64.ShapeCasts S2048x64
  reduces_S256x2048_S256 : S256x2048.Reduces [1] S256
  shapeCasts_S256_S256x1 : S256.ShapeCasts S256x1
  broadcasts_S256x1_S256x2048 : S256x1.Broadcasts S256x2048
  inb_S1x2x256x2048_S1x1x256x2048_0_0_0_0 : ∀ a, (![0, 0, 0, 0] : Fin 4 → Nat) a + S1x1x256x2048.size a ≤ S1x2x256x2048.size a
  h_S1x1x256x2048 : 0 < S1x1x256x2048.numel
  shapeCasts_S1x1x256x2048_S256x2048 : S1x1x256x2048.ShapeCasts S256x2048
  shapeCasts_S256x2048_S1x1x256x2048 : S256x2048.ShapeCasts S1x1x256x2048
  inb_S1x256x128_S1x256x64_0_0_64 : ∀ a, (![0, 0, 64] : Fin 3 → Nat) a + S1x256x64.size a ≤ S1x256x128.size a
  inb_S1x2048x128_S1x2048x64_0_0_64 : ∀ a, (![0, 0, 64] : Fin 3 → Nat) a + S1x2048x64.size a ≤ S1x2048x128.size a
  inb_S1x2x256x2048_S1x1x256x2048_0_1_0_0 : ∀ a, (![0, 1, 0, 0] : Fin 4 → Nat) a + S1x1x256x2048.size a ≤ S1x2x256x2048.size a
  concatenates_S256x64_S256x64_S256x128_d1 : Shape.Concatenates [S256x64, S256x64] S256x128 1
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  packedbf16_S1x256x128_S1x256x128_0_0_0 : (Rect.unit (s := S1x256x128) ![0, 0, 0] S1x256x128.size inb_S1x256x128_S1x256x128_0_0_0).PackedRows (EltTy.packing .bf16)
  dot_S1024x1024_S1024x1024_S1024x1024_1_0_0_1_n_n_wf : DotDims.WF S1024x1024 S1024x1024 S1024x1024 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .bf16 = 32 ∨ (Rect.block (s := S4096x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x1024.size a
  hwx1_2 : ∀ i : grid1.Coords, EltTy.bits .bf16 = 32 ∨ (Rect.block (s := S4096x1024) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x1024.size a
  hwx2_2 : ∀ i : grid2.Coords, EltTy.bits .bf16 = 32 ∨ (Rect.block (s := S4096x1024) S1024x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x128.size a ≤ S2x2048x1024.size a
  hwx3_0 : ∀ i : grid3.Coords, EltTy.bits .bf16 = 32 ∨ (Rect.block (s := S2x2048x1024) S1x256x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x128.size a ≤ S2x2048x1024.size a
  hwx3_1 : ∀ i : grid3.Coords, EltTy.bits .bf16 = 32 ∨ (Rect.block (s := S2x2048x1024) S1x2048x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x128.size a ≤ S2x2048x1024.size a
  hwx3_2 : ∀ i : grid3.Coords, EltTy.bits .bf16 = 32 ∨ (Rect.block (s := S2x2048x1024) S1x2048x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x2048.size a ≤ S2048x2048.size a
  hwx3_3 : ∀ i : grid3.Coords, EltTy.bits .f32 = 32 ∨ (Rect.block (s := S2048x2048) S256x2048.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x2x256x2048.size a ≤ S2x16x2048x2048.size a
  hwx3_4 : ∀ i : grid3.Coords, EltTy.bits .f32 = 32 ∨ (Rect.block (s := S2x16x2048x2048) S1x2x256x2048.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x256x128.size a ≤ S2x2048x1024.size a
  hwx3_5 : ∀ i : grid3.Coords, EltTy.bits .bf16 = 32 ∨ (Rect.block (s := S2x2048x1024) S1x256x128.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x1024.size a
  hwx4_0 : ∀ i : grid4.Coords, EltTy.bits .bf16 = 32 ∨ (Rect.block (s := S4096x1024) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S4096x1024.size a
  hwx4_2 : ∀ i : grid4.Coords, EltTy.bits .f32 = 32 ∨ (Rect.block (s := S4096x1024) S1024x1024.size (cc4_transform_2 i) (hinb4_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v10) S1x256x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S1x2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S256x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v17_0) S1x2x256x2048.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v17_1) S1x256x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v18) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v19) S1024x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S2x2048x1024 : Shape := ⟨3, ![2, 2048, 1024]⟩
abbrev S2048x2048 : Shape := ⟨2, ![2048, 2048]⟩
abbrev S1024x1024 : Shape := ⟨2, ![1024, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2048x2048, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S2x2048x1024, .f32⟩
  | .hbm, ⟨9, _⟩ => ⟨S2x2048x16x64, .f32⟩
  | .hbm, ⟨10, _⟩ => ⟨S2x16x2048x64, .f32⟩
  | .hbm, ⟨11, _⟩ => ⟨S2x2048x1024, .f32⟩
  | .hbm, ⟨12, _⟩ => ⟨S2x2048x16x64, .f32⟩
  | .hbm, ⟨13, _⟩ => ⟨S2x16x2048x64, .f32⟩
  | .hbm, ⟨14, _⟩ => ⟨S2x2048x1024, .f32⟩
  | .hbm, ⟨15, _⟩ => ⟨S2x2048x16x64, .f32⟩
  | .hbm, ⟨16, _⟩ => ⟨S2x16x2048x64, .f32⟩
  | .hbm, ⟨17, _⟩ => ⟨S2x16x2048x2048, .f32⟩
  | .hbm, ⟨18, _⟩ => ⟨S_, .f32⟩
  | .hbm, ⟨19, _⟩ => ⟨S_, .f32⟩
  | .hbm, ⟨20, _⟩ => ⟨S2x16x2048x2048, .f32⟩
  | .hbm, ⟨21, _⟩ => ⟨S2x16x2048x2048, .f32⟩
  | .hbm, ⟨22, _⟩ => ⟨S1x1x2048x2048, .f32⟩
  | .hbm, ⟨23, _⟩ => ⟨S2x16x2048x2048, .f32⟩
  | .hbm, ⟨24, _⟩ => ⟨S2x16x2048x2048, .f32⟩
  | .hbm, ⟨25, _⟩ => ⟨S_, .f32⟩
  | .hbm, ⟨26, _⟩ => ⟨S2x16x2048, .f32⟩
  | .hbm, ⟨27, _⟩ => ⟨S_, .f32⟩
  | .hbm, ⟨28, _⟩ => ⟨S2x16x2048, .f32⟩
  | .hbm, ⟨29, _⟩ => ⟨S2x16x2048, .f32⟩
  | .hbm, ⟨30, _⟩ => ⟨S2x16x2048x1, .f32⟩
  | .hbm, ⟨31, _⟩ => ⟨S2x16x2048x2048, .f32⟩
  | .hbm, ⟨32, _⟩ => ⟨S2x16x2048x2048, .f32⟩
  | .hbm, ⟨33, _⟩ => ⟨S2x16x2048x2048, .f32⟩
  | .hbm, ⟨34, _⟩ => ⟨S_, .f32⟩
  | .hbm, ⟨35, _⟩ => ⟨S2x16x2048, .f32⟩
  | .hbm, ⟨36, _⟩ => ⟨S2x16x2048x1, .f32⟩
  | .hbm, ⟨37, _⟩ => ⟨S2x16x2048x2048, .f32⟩
  | .hbm, ⟨38, _⟩ => ⟨S2x16x2048x2048, .f32⟩
  | .hbm, ⟨39, _⟩ => ⟨S2x16x2048x64, .f32⟩
  | .hbm, ⟨40, _⟩ => ⟨S2x2048x16x64, .f32⟩
  | .hbm, ⟨41, _⟩ => ⟨S2x2048x1024, .f32⟩
  | .hbm, ⟨42, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.RunNamed.lean ====
/- The run of the idealized kernel's @main, with its two result buffers named.

   @main is eleven segments: six stretches of host operations (transposes, reshapes) around five
   pipelined regions (three input projections, the attention region, the output projection). The
   TensorCore's buffer contents are folded through these segments, `Gen.W0 … Gen.W11`: a stretch
   rewrites the buffers its operations write, a region leaves its arrays at what its write-backs
   fold to, every other buffer stays.

   Statement: from any launch memory with zero counters, every weakly fair execution of @main
   terminates without fault, and in every final state
     * the buffer `main_v20` (the projected attention output, [2,2048,1024]) and the buffer
       `main_v17_0` (the attention weights, [2,16,2048,2048]) hold the fold's last contents
       `Gen.W11` at those buffers, and
     * the eight argument buffers hold what they held at launch.
   The thread state at the end of the run holds every unscoped buffer at `Gen.W11`; reading it
   against the final machine state gives each conjunct. -/
import proofs.«155392_j63067299774603_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters, every weakly fair execution of @main on the TensorCores
    terminates, nothing faulting, and in every final state: the two result buffers hold the last
    boundary's contents `Gen.W11`, and the eight argument buffers are as launched. -/
theorem run_named : θ_run defs (onTc (τ := τ) (main (F := F))) ⟨m, fun _ => 0, ρ⟩ (fun r => ∀ c : Dev nD,
      r.2.mem ((c.tc : Thread nD τ).loc main_v20) = Gen.W11 m ρ c (Proc.devRef .tc main_v20)
      ∧ r.2.mem ((c.tc : Thread nD τ).loc main_v17_0) = Gen.W11 m ρ c (Proc.devRef .tc main_v17_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v20 (by decide)),
       h c _ (mem_uc main_v17_0 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.RunNamed

end
-- ==== Proof.LibPlainMatmul.lean ====
/-
  A matrix product with plain dimension numbers, read at an entry, at the exact reading of floats as extended reals.

  `tpu.matmul` of an m×k by a k×n matrix (contracting the left operand's axis 1 with the right operand's axis 0, no
  batch axes) accumulated into the zero splat is, at entry (a, b), the sum over c of A(a, c)·B(c, b): the accumulator
  contributes `0 + ·` and nothing else, so the equation holds at the infinities too. Beside it, the one float word a
  bias row of ones needs: the f32 pattern of 1.0 reads as the number 1.
-/
import Idealize.ShloMosaic.Lib.StackMember
import Idealize.ShloMosaic.PureOps.IdealRules

noncomputable section

open scoped BigOperators

namespace Idealize.ShloMosaic.PlainMatmul

open Idealize.ShloMosaic Idealize.ShloMosaic.ValueIdx

/-- The product of an m×k by a k×n matrix accumulated into the zero splat, at entry (a, b), is the sum over the
    contracted coordinate c of A(a, c)·B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- The f32 word of 1.0 denotes the number 1. -/
theorem ofBits_one_f32 : Ideal.ofBits .f32 0x3F800000#32 = 1 :=
  IdealRules.sign_bit.ideal_onePat .f32

end Idealize.ShloMosaic.PlainMatmul

end
-- ==== Proof.LinearAt.lean ====
/-
  The four projection kernels' result arrays, entry by entry, for any contents of the region's arrays on entry.

  Each of the four regions is the same pipelined matrix product: a grid of four points, point t reading rows
  t·1024 … t·1024 + 1023 of the left operand x [4096, 1024] and all of the right operand w [1024, 1024], multiplying
  the two blocks on the matrix unit into a zero accumulator, and writing the product to rows t·1024 … of the result.
  At the exact reading of floats as extended reals the format changes are the identity, so the block written at point t
  is block t of the one array  (r, f) ↦ Σ_k x(r, k) · w(k, f);  the four blocks tile the result, which therefore ends
  holding that array (`final0` … `final4`), read at an entry in `arr0_at` … `arr4_at`.
-/
import proofs.«155392_j63067299774603_2_alg».proof.Proof.Gen.KernelIdeal.Frame
import proofs.«155392_j63067299774603_2_alg».proof.Proof.LibPlainMatmul
import Idealize.ShloMosaic.Lib.ValueIdx
import Idealize.ShloMosaic.Lib.Pipeline.Value
import Idealize.ShloMosaic.PureOps.Ideal.Laws
import Idealize.ShloMosaic.Lib.ValueLayout

noncomputable section

open scoped BigOperators

namespace Cert.KernelIdeal.LinearAt

open Cert.KernelIdeal Cert.KernelIdeal.Gen Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The kernels' dimension numbers are the plain ones: contract the left operand's axis 1 with the right operand's axis 0. -/
theorem dims_plain : dot_S1024x1024_S1024x1024_S1024x1024_1_0_0_1_n_n = DotDims.plain 1024 1024 1024 := rfl

/-- The body's payload at an entry: the format changes and same-shape casts are the identity, the matrix product into the
    zero accumulator is the sum over the contracted coordinate. -/
theorem pay0_at (x0 : Vec Ideal S1024x1024 .f32) (x1 : Vec Ideal S1024x1024 .bf16) (a b : Fin 1024) :
    k0_pay1 x0 x1 (ix2 a b) = ∑ k : Fin 1024, x0 (ix2 a k) * x1 (ix2 k b) := by
  unfold k0_pay1
  simp only [shapeCast_self]
  rw [dims_plain, truncf_apply]
  exact PlainMatmul.matmul_plain_zero_apply (φ₁ := .bf16) (φ₂ := .bf16) none (truncf .bf16 x0 bitsLt_bf16_f32) x1 a b

theorem pay1_at (x0 : Vec Ideal S1024x1024 .f32) (x1 : Vec Ideal S1024x1024 .bf16) (a b : Fin 1024) :
    k1_pay1 x0 x1 (ix2 a b) = ∑ k : Fin 1024, x0 (ix2 a k) * x1 (ix2 k b) := by
  unfold k1_pay1
  simp only [shapeCast_self]
  rw [dims_plain, truncf_apply]
  exact PlainMatmul.matmul_plain_zero_apply (φ₁ := .bf16) (φ₂ := .bf16) none (truncf .bf16 x0 bitsLt_bf16_f32) x1 a b

theorem pay2_at (x0 : Vec Ideal S1024x1024 .f32) (x1 : Vec Ideal S1024x1024 .bf16) (a b : Fin 1024) :
    k2_pay1 x0 x1 (ix2 a b) = ∑ k : Fin 1024, x0 (ix2 a k) * x1 (ix2 k b) := by
  unfold k2_pay1
  simp only [shapeCast_self]
  rw [dims_plain, truncf_apply]
  exact PlainMatmul.matmul_plain_zero_apply (φ₁ := .bf16) (φ₂ := .bf16) none (truncf .bf16 x0 bitsLt_bf16_f32) x1 a b

theorem pay4_at (x0 : Vec Ideal S1024x1024 .bf16) (x1 : Vec Ideal S1024x1024 .bf16) (a b : Fin 1024) :
    k4_pay1 x0 x1 (ix2 a b) = ∑ k : Fin 1024, x0 (ix2 a k) * x1 (ix2 k b) := by
  unfold k4_pay1
  simp only [shapeCast_self]
  rw [dims_plain]
  exact PlainMatmul.matmul_plain_zero_apply (φ₁ := .bf16) (φ₂ := .bf16) none x0 x1 a b

/-- The product x · w of a [4096, 1024] by a [1024, 1024] array, entry by entry. -/
def prod (x : S4096x1024.Idx → EReal) (w : S1024x1024.Idx → EReal) : S4096x1024.Idx → EReal :=
  fun i => ∑ k : Fin 1024, x (ix2 (n0 := 4096) (n1 := 1024) (i 0) k) * w (ix2 (n0 := 1024) (n1 := 1024) k (i 1))

theorem prod_apply (x : S4096x1024.Idx → EReal) (w : S1024x1024.Idx → EReal) (r : Fin 4096) (f : Fin 1024) :
    prod x w (ix2 r f) = ∑ k : Fin 1024, x (ix2 r k) * w (ix2 k f) := rfl

/-- A block of 1024 rows of the product, entry by entry: when the left block is rows q·1024 … q·1024 + 1023 of x and the
    right block is all of w, a payload that is the matrix product of its two blocks has at (a, b) the product's entry at
    (q·1024 + a, b). -/
theorem block_entry (pay : (S1024x1024.Idx → EReal) → (S1024x1024.Idx → EReal) → S1024x1024.Idx → EReal)
    (hpay : ∀ (x0 x1 : S1024x1024.Idx → EReal) (a b : Fin 1024),
      pay x0 x1 (ix2 a b) = ∑ k : Fin 1024, x0 (ix2 a k) * x1 (ix2 k b))
    (x0 x1 : S1024x1024.Idx → EReal)
    (X : S4096x1024.Idx → EReal) (W : S1024x1024.Idx → EReal) (q : Nat)
    (h0 : ∀ (y : S1024x1024.Idx) (i : S4096x1024.Idx), (i 0).val = q * 1024 + (y 0).val → (i 1).val = (y 1).val → x0 y = X i)
    (h1 : ∀ y : S1024x1024.Idx, x1 y = W y)
    (j : S1024x1024.Idx) (i : S4096x1024.Idx) (hi0 : (i 0).val = q * 1024 + (j 0).val) (hi1 : (i 1).val = (j 1).val) :
    pay x0 x1 j = prod X W i := by
  obtain ⟨a, b, rfl⟩ : ∃ (a : Fin 1024) (b : Fin 1024), j = ix2 a b := ⟨j 0, j 1, eq_ix2 j⟩
  rw [hpay]
  unfold prod
  have hb : (i 1 : Fin 1024) = b := Fin.ext hi1
  refine Finset.sum_congr rfl fun k _ => ?_
  rw [h0 (ix2 a k) (ix2 (n0 := 4096) (n1 := 1024) (i 0) k) hi0 rfl, h1, hb]

/-! ## Region 0 -/

/-- The printed index maps over the grid's four points: the left operand's row block moves with the result's, every
    other block index is 0, and the result's row block is one of 0 … 3. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 3 :=
  (by decide +kernel : ∀ t : Fin grid0.N, _)

/-- Every row block of the result is some point's. -/
theorem idx_onto0 : ∀ q : Fin 4, ∃ t : Fin cfg0.N, win0_2.index t = ![q.val, 0] :=
  (by decide +kernel : ∀ q : Fin 4, ∃ t : Fin grid0.N, win0_2.index t = ![q.val, 0])

/-- What point `t` writes back is block `t` of the product of the two operand arrays. -/
theorem flushed0_eq (c : Dev nD) (t : Fin cfg0.N) :
    (dat0 V c).flushed 2 t = ((cfg0.win 2).blk t).view.read (Elt Ideal) (prod (V c main_v8) (V c main_v1)) := by
  show (cfg0.win 2).cut (grid0.coords t) ((dat0 V c).after 2 t) = _
  rw [after0_2]
  unfold out0_2
  rw [View.canon_unit_zero hz]
  simp only [View.ld_unit_zero (S := S1024x1024) hz]
  obtain ⟨e0, e1, e2, e3, e4, e5⟩ := idx_facts0 t
  funext j
  show k0_pay1 (iblk0 V c 0 t) (iblk0 V c 1 t) j = prod (V c main_v8) (V c main_v1) (((cfg0.win 2).blk t).view.emb j)
  refine block_entry (k0_pay1 (F := Ideal)) pay0_at (iblk0 V c 0 t) (iblk0 V c 1 t) (V c main_v8) (V c main_v1) (win0_2.index t (0 : Fin 2)) ?_ ?_ j _ ?_ ?_
  · intro y i h0 h1
    show V c main_v8 (((cfg0.win 0).blk t).view.emb y) = V c main_v8 i
    congr 1
    funext a; apply Fin.ext
    match a with
    | ⟨0, _⟩ => show win0_0.index t (0 : Fin 2) * 1024 + 1 * (y 0).val = (i 0).val; omega
    | ⟨1, _⟩ => show win0_0.index t (1 : Fin 2) * 1024 + 1 * (y 1).val = (i 1).val; omega
  · intro y
    show V c main_v1 (((cfg0.win 1).blk t).view.emb y) = V c main_v1 y
    congr 1
    funext a; apply Fin.ext
    match a with
    | ⟨0, _⟩ => show win0_1.index t (0 : Fin 2) * 1024 + 1 * (y 0).val = (y 0).val; omega
    | ⟨1, _⟩ => show win0_1.index t (1 : Fin 2) * 1024 + 1 * (y 1).val = (y 1).val; omega
  · show win0_2.index t (0 : Fin 2) * 1024 + 1 * (j 0).val = win0_2.index t (0 : Fin 2) * 1024 + (j 0).val; omega
  · show win0_2.index t (1 : Fin 2) * 1024 + 1 * (j 1).val = (j 1).val; omega

/-- An index of the result array is in point `t`'s block iff each coordinate is in the block's range on its axis. -/
theorem mem_blk0 (t : Fin cfg0.N) (i : S4096x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v9).slice (win0_2.rect t)).set ↔ _
  rw [View.set_slice_whole, Rect.mem_set_unit]
  exact Iff.rfl

/-- Every entry of the result array is in the block of the point that owns its row block, row / 1024. -/
theorem cover0 (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  obtain ⟨t, ht⟩ := idx_onto0 ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the region: the product of the two operand arrays as the region finds them. -/
theorem final0 (c : Dev nD) : (dat0 V c).arrAt 2 cfg0.N = prod (V c main_v8) (V c main_v1) :=
  (dat0 V c).arrAt_eq_of_cover 2 (prod (V c main_v8) (V c main_v1)) (fun t _ => flushed0_eq V c t) cover0

/-- Entry (r, f) of the result array after the region is Σ_k x(r, k) · w(k, f). -/
theorem arr0_at (c : Dev nD) (r : Fin 4096) (f : Fin 1024) :
    ((dat0 (F := Ideal) V c).arrAt 2 cfg0.N (ix2 r f) : EReal)
      = ∑ k : Fin 1024, @HMul.hMul EReal EReal EReal _ (V c main_v8 (ix2 r k)) (V c main_v1 (ix2 k f)) := by
  rw [final0]
  rfl

/-! ## Region 1 -/

/-- The printed index maps over the grid's four points: the left operand's row block moves with the result's, every
    other block index is 0, and the result's row block is one of 0 … 3. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 3 :=
  (by decide +kernel : ∀ t : Fin grid1.N, _)

/-- Every row block of the result is some point's. -/
theorem idx_onto1 : ∀ q : Fin 4, ∃ t : Fin cfg1.N, win1_2.index t = ![q.val, 0] :=
  (by decide +kernel : ∀ q : Fin 4, ∃ t : Fin grid1.N, win1_2.index t = ![q.val, 0])

/-- What point `t` writes back is block `t` of the product of the two operand arrays. -/
theorem flushed1_eq (c : Dev nD) (t : Fin cfg1.N) :
    (dat1 V c).flushed 2 t = ((cfg1.win 2).blk t).view.read (Elt Ideal) (prod (V c main_v11) (V c main_v3)) := by
  show (cfg1.win 2).cut (grid1.coords t) ((dat1 V c).after 2 t) = _
  rw [after1_2]
  unfold out1_2
  rw [View.canon_unit_zero hz]
  simp only [View.ld_unit_zero (S := S1024x1024) hz]
  obtain ⟨e0, e1, e2, e3, e4, e5⟩ := idx_facts1 t
  funext j
  show k1_pay1 (iblk1 V c 0 t) (iblk1 V c 1 t) j = prod (V c main_v11) (V c main_v3) (((cfg1.win 2).blk t).view.emb j)
  refine block_entry (k1_pay1 (F := Ideal)) pay1_at (iblk1 V c 0 t) (iblk1 V c 1 t) (V c main_v11) (V c main_v3) (win1_2.index t (0 : Fin 2)) ?_ ?_ j _ ?_ ?_
  · intro y i h0 h1
    show V c main_v11 (((cfg1.win 0).blk t).view.emb y) = V c main_v11 i
    congr 1
    funext a; apply Fin.ext
    match a with
    | ⟨0, _⟩ => show win1_0.index t (0 : Fin 2) * 1024 + 1 * (y 0).val = (i 0).val; omega
    | ⟨1, _⟩ => show win1_0.index t (1 : Fin 2) * 1024 + 1 * (y 1).val = (i 1).val; omega
  · intro y
    show V c main_v3 (((cfg1.win 1).blk t).view.emb y) = V c main_v3 y
    congr 1
    funext a; apply Fin.ext
    match a with
    | ⟨0, _⟩ => show win1_1.index t (0 : Fin 2) * 1024 + 1 * (y 0).val = (y 0).val; omega
    | ⟨1, _⟩ => show win1_1.index t (1 : Fin 2) * 1024 + 1 * (y 1).val = (y 1).val; omega
  · show win1_2.index t (0 : Fin 2) * 1024 + 1 * (j 0).val = win1_2.index t (0 : Fin 2) * 1024 + (j 0).val; omega
  · show win1_2.index t (1 : Fin 2) * 1024 + 1 * (j 1).val = (j 1).val; omega

/-- An index of the result array is in point `t`'s block iff each coordinate is in the block's range on its axis. -/
theorem mem_blk1 (t : Fin cfg1.N) (i : S4096x1024.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v12).slice (win1_2.rect t)).set ↔ _
  rw [View.set_slice_whole, Rect.mem_set_unit]
  exact Iff.rfl

/-- Every entry of the result array is in the block of the point that owns its row block, row / 1024. -/
theorem cover1 (i : S4096x1024.Idx) :
    ∃ t : Fin cfg1.N, (cfg1.win 2).flush t = true ∧ i ∈ ((cfg1.win 2).blk t).view.set := by
  have hi0 : (i 0).val < 4096 := (i 0).isLt
  have hi1 : (i 1).val < 1024 := (i 1).isLt
  obtain ⟨t, ht⟩ := idx_onto1 ⟨(i 0).val / 1024, by omega⟩
  have q0 : win1_2.index t (0 : Fin 2) = (i 0).val / 1024 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- The result array after the region: the product of the two operand arrays as the region finds them. -/
theorem final1 (c : Dev nD) : (dat1 V c).arrAt 2 cfg1.N = prod (V c main_v11) (V c main_v3) :=
  (dat1 V c).arrAt_eq_of_cover 2 (prod (V c main_v11) (V c main_v3)) (fun t _ => flushed1_eq V c t) cover1

/-- Entry (r, f) of the result array after the region is Σ_k x(r, k) · w(k, f). -/
theorem arr1_at (c : Dev nD) (r : Fin 4096) (f : Fin 1024) :
    ((dat1 (F := Ideal) V c).arrAt 2 cfg1.N (ix2 r f) : EReal)
      = ∑ k : Fin 1024, @HMul.hMul EReal EReal EReal _ (V c main_v11 (ix2 r k)) (V c main_v3 (ix2 k f)) := by
  rw [final1]
  rfl

/-! ## Region 2 -/

/-- The printed index maps over the grid's four points: the left operand's row block moves with the result's, every
    other block index is 0, and the result's row block is one of 0 … 3. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 3 :=
  (by decide +kernel : ∀ t : Fin grid2.N, _)

/-- Every row block of the result is some point's. -/
theorem idx_onto2 : ∀ q : Fin 4, ∃ t : Fin cfg2.N, win2_2.index t = ![q.val, 0] :=
  (by decide +kernel : ∀ q : Fin 4, ∃ t : Fin grid2.N, win2_2.index t = ![q.val, 0])

/-- What point `t` writes back is block `t` of the product of the two operand arrays. -/
theorem flushed2_eq (c : Dev nD) (t : Fin cfg2.N) :
    (dat2 V c).flushed 2 t = ((cfg2.win 2).blk t).view.read (Elt Ideal) (prod (V c main_v14) (V c main_v5)) := by
  show (cfg2.win 2).cut (grid2.coords t) ((dat2 V c).after 2 t) = _
  rw [after2_2]
  unfold out2_2
  rw [View.canon_unit_zero hz]
  simp only [View.ld_unit_zero (S := S1024x1024) hz]
  obtain ⟨e0, e1, e2, e3, e4, e5⟩ := idx_facts2 t
  funext j
  show k2_pay1 (iblk2 V c 0 t) (iblk2 V c 1 t) j = prod (V c main_v14) (V c main_v5) (((cfg2.win 2).blk t).view.emb j)
  refine block_entry (k2_pay1 (F := Ideal)) pay2_at (iblk2 V c 0 t) (iblk2 V c 1 t) (V c main_v14) (V c main_v5) (win2_2.index t (0 : Fin 2)) ?_ ?_ j _ ?_ ?_
  · intro y i h0 h1
    show V c main_v14 (((cfg2.win 0).blk t).view.emb y) = V c main_v14 i
    congr 1
    funext a; apply Fin.ext
    match a with
    | ⟨0, _⟩ => show win2_0.index t (0 : Fin 2) * 1024 + 1 * (y 0).val = (i 0).val; omega
    | ⟨1, _⟩ => show win2_0.index t (1 : Fin 2) * 1024 + 1 * (y 1).val = (i 1).val; omega
  · intro y
    show V c main_v5 (((cfg2.win 1).blk t).view.emb y) = V c main_v5 y
    congr 1
    funext a; apply Fin.ext
    match a with
    | ⟨0, _⟩ => show win2_1.index t (0 : Fin 2) * 1024 + 1 * (y 0).val = (y 0).val; omega
    | ⟨1, _⟩ => show win2_1.index t (1 : Fin 2) * 1024 + 1 * (y 1).val = (y 1).val; omega
  · show win2_2.index t (0 : Fin 2) * 1024 + 1 * (j 0).val = win2_2.index t (0 : Fin 2) * 1024 + (j 0).val; omega
  · show win2_2.index t (1 : Fin 2) * 1024 + 1 * (j 1).val = (j 1).val; omega

/-- An index of the result array is in point `t`'s block iff each coordinate is in the block's range on its axis. -/
theorem mem_blk2 (t : Fin cfg2.N) (i : S4096x1024.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v15).slice (win2_2.rect t)).set ↔ _
  rw [View.set_slice_whole, Rect.mem_set_unit]
  exact Iff.rfl

/-- Every entry of the result array is in the block of the point that owns its row block, row / 1024. -/
theorem cover2 (i : S4096x1024.Idx) :
    ∃ t : Fin cfg2.N, (cfg2.win 2).flush t = true ∧ i ∈ ((cfg2.win 2).blk t).view.set := by
  have hi0 : (i 0).val < 4096 := (i 0).isLt
  have hi1 : (i 1).val < 1024 := (i 1).isLt
  obtain ⟨t, ht⟩ := idx_onto2 ⟨(i 0).val / 1024, by omega⟩
  have q0 : win2_2.index t (0 : Fin 2) = (i 0).val / 1024 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- The result array after the region: the product of the two operand arrays as the region finds them. -/
theorem final2 (c : Dev nD) : (dat2 V c).arrAt 2 cfg2.N = prod (V c main_v14) (V c main_v5) :=
  (dat2 V c).arrAt_eq_of_cover 2 (prod (V c main_v14) (V c main_v5)) (fun t _ => flushed2_eq V c t) cover2

/-- Entry (r, f) of the result array after the region is Σ_k x(r, k) · w(k, f). -/
theorem arr2_at (c : Dev nD) (r : Fin 4096) (f : Fin 1024) :
    ((dat2 (F := Ideal) V c).arrAt 2 cfg2.N (ix2 r f) : EReal)
      = ∑ k : Fin 1024, @HMul.hMul EReal EReal EReal _ (V c main_v14 (ix2 r k)) (V c main_v5 (ix2 k f)) := by
  rw [final2]
  rfl

/-! ## Region 4 -/

/-- The printed index maps over the grid's four points: the left operand's row block moves with the result's, every
    other block index is 0, and the result's row block is one of 0 … 3. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 3 :=
  (by decide +kernel : ∀ t : Fin grid4.N, _)

/-- Every row block of the result is some point's. -/
theorem idx_onto4 : ∀ q : Fin 4, ∃ t : Fin cfg4.N, win4_2.index t = ![q.val, 0] :=
  (by decide +kernel : ∀ q : Fin 4, ∃ t : Fin grid4.N, win4_2.index t = ![q.val, 0])

/-- What point `t` writes back is block `t` of the product of the two operand arrays. -/
theorem flushed4_eq (c : Dev nD) (t : Fin cfg4.N) :
    (dat4 V c).flushed 2 t = ((cfg4.win 2).blk t).view.read (Elt Ideal) (prod (V c main_v18) (V c main_v7)) := by
  show (cfg4.win 2).cut (grid4.coords t) ((dat4 V c).after 2 t) = _
  rw [after4_2]
  unfold out4_2
  rw [View.canon_unit_zero hz]
  simp only [View.ld_unit_zero (S := S1024x1024) hz]
  obtain ⟨e0, e1, e2, e3, e4, e5⟩ := idx_facts4 t
  funext j
  show k4_pay1 (iblk4 V c 0 t) (iblk4 V c 1 t) j = prod (V c main_v18) (V c main_v7) (((cfg4.win 2).blk t).view.emb j)
  refine block_entry (k4_pay1 (F := Ideal)) pay4_at (iblk4 V c 0 t) (iblk4 V c 1 t) (V c main_v18) (V c main_v7) (win4_2.index t (0 : Fin 2)) ?_ ?_ j _ ?_ ?_
  · intro y i h0 h1
    show V c main_v18 (((cfg4.win 0).blk t).view.emb y) = V c main_v18 i
    congr 1
    funext a; apply Fin.ext
    match a with
    | ⟨0, _⟩ => show win4_0.index t (0 : Fin 2) * 1024 + 1 * (y 0).val = (i 0).val; omega
    | ⟨1, _⟩ => show win4_0.index t (1 : Fin 2) * 1024 + 1 * (y 1).val = (i 1).val; omega
  · intro y
    show V c main_v7 (((cfg4.win 1).blk t).view.emb y) = V c main_v7 y
    congr 1
    funext a; apply Fin.ext
    match a with
    | ⟨0, _⟩ => show win4_1.index t (0 : Fin 2) * 1024 + 1 * (y 0).val = (y 0).val; omega
    | ⟨1, _⟩ => show win4_1.index t (1 : Fin 2) * 1024 + 1 * (y 1).val = (y 1).val; omega
  · show win4_2.index t (0 : Fin 2) * 1024 + 1 * (j 0).val = win4_2.index t (0 : Fin 2) * 1024 + (j 0).val; omega
  · show win4_2.index t (1 : Fin 2) * 1024 + 1 * (j 1).val = (j 1).val; omega

/-- An index of the result array is in point `t`'s block iff each coordinate is in the block's range on its axis. -/
theorem mem_blk4 (t : Fin cfg4.N) (i : S4096x1024.Idx) :
    i ∈ ((cfg4.win 2).blk t).view.set ↔ ∀ a : Fin 2, win4_2.index t a * S1024x1024.size a ≤ (i a).val ∧ (i a).val < win4_2.index t a * S1024x1024.size a + S1024x1024.size a := by
  show i ∈ ((View.whole main_v19).slice (win4_2.rect t)).set ↔ _
  rw [View.set_slice_whole, Rect.mem_set_unit]
  exact Iff.rfl

/-- Every entry of the result array is in the block of the point that owns its row block, row / 1024. -/
theorem cover4 (i : S4096x1024.Idx) :
    ∃ t : Fin cfg4.N, (cfg4.win 2).flush t = true ∧ i ∈ ((cfg4.win 2).blk t).view.set := by
  have hi0 : (i 0).val < 4096 := (i 0).isLt
  have hi1 : (i 1).val < 1024 := (i 1).isLt
  obtain ⟨t, ht⟩ := idx_onto4 ⟨(i 0).val / 1024, by omega⟩
  have q0 : win4_2.index t (0 : Fin 2) = (i 0).val / 1024 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 1024 ≤ (i 1).val ∧ (i 1).val < win4_2.index t (1 : Fin 2) * 1024 + 1024; omega

/-- The result array after the region: the product of the two operand arrays as the region finds them. -/
theorem final4 (c : Dev nD) : (dat4 V c).arrAt 2 cfg4.N = prod (V c main_v18) (V c main_v7) :=
  (dat4 V c).arrAt_eq_of_cover 2 (prod (V c main_v18) (V c main_v7)) (fun t _ => flushed4_eq V c t) cover4

/-- Entry (r, f) of the result array after the region is Σ_k x(r, k) · w(k, f). -/
theorem arr4_at (c : Dev nD) (r : Fin 4096) (f : Fin 1024) :
    ((dat4 (F := Ideal) V c).arrAt 2 cfg4.N (ix2 r f) : EReal)
      = ∑ k : Fin 1024, @HMul.hMul EReal EReal EReal _ (V c main_v18 (ix2 r k)) (V c main_v7 (ix2 k f)) := by
  rw [final4]
  rfl

end Cert.KernelIdeal.LinearAt

end
-- ==== Proof.LibColumn.lean ====
/- A per-row statistic laid out as a column and spread back over the row.

   A kernel that reduces each row of an [a, b] block to one number (a maximum, a sum) keeps the result as a
   vector of length a, re-lays it as an [a, 1] column and broadcasts the column over the b positions of each
   row.  Read at (p, c) the column and its broadcast are the statistic of row p. -/
import Idealize.ShloMosaic.Lib.Pipeline.Value
import Idealize.ShloMosaic.Lib.ValueIdx

namespace Cert.LibColumn

open Idealize.ShloMosaic Idealize.ShloMosaic.ValueIdx

variable {α : Type}

/-- A vector of length a re-laid as an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Both steps at once: the statistic of row p, at every position of the row. -/
theorem broadcastTo_shapeCast_column_apply {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Cert.LibColumn
-- ==== Proof.LibRowSoftmax.lean ====
/- Row maxima and the softmax of a row, as a kernel and as a host program compute them, read at an index.

   For a row r of finitely many extended reals and a starting value z, `maxFrom z r` is the largest of z and the
   entries of r, and `softmaxFrom z r j = exp (r j - maxFrom z r) / Σ_k exp (r k - maxFrom z r)`.
   A kernel takes the maximum (and the sum) of every row of an [a, b] matrix as a vector of length a, re-lays
   it as an [a, 1] column and spreads the column over the row; a host program reduces the last axis of an
   [n, a, b] stack.  Read at an index, each is `maxFrom` (or the plain sum) of that row, so the kernel's
   subtract-exponentiate-normalise chain is `softmaxFrom` of the row, entry by entry. -/
import Idealize.ShloMosaic.Lib.Pipeline.Value
import Idealize.ShloMosaic.Lib.ValueIdx
import Idealize.ShloMosaic.PureOps.Ideal.Laws
import proofs.«155392_j63067299774603_2_alg».proof.Proof.LibColumn

noncomputable section

namespace Cert.LibRowSoftmax

open Idealize.ShloMosaic Idealize.ShloMosaic.ValueIdx

/-- The largest of `z` and the entries of a row. -/
def maxFrom {b : ℕ} (z : EReal) (r : Fin b → EReal) : EReal := (Finset.univ : Finset (Fin b)).fold max z r

/-- The starting value is below the maximum taken from it. -/
theorem le_maxFrom {b : ℕ} (z : EReal) (r : Fin b → EReal) : z ≤ maxFrom z r :=
  (Finset.le_fold_max z).mpr (Or.inl le_rfl)

/-- Taking the larger of the starting value and the maximum taken from it changes nothing. -/
theorem max_maxFrom {b : ℕ} (z : EReal) (r : Fin b → EReal) : max z (maxFrom z r) = maxFrom z r :=
  max_eq_right (le_maxFrom z r)

/-- The softmax of a row, its entries centred at their maximum taken from `z`. -/
def softmaxFrom {b : ℕ} (z : EReal) (r : Fin b → EReal) (j : Fin b) : EReal :=
  Ideal.div (Ideal.exp (r j - maxFrom z r)) (∑ k : Fin b, Ideal.exp (r k - maxFrom z r))

/-! ## A kernel's reductions along the rows of an [a, b] matrix -/

/-- Row p with column k put back is entry (p, k). -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- The maximum over each row, at row p: the largest of the accumulator's value and the row's entries. -/
theorem multiReduction_max_row {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ v acc h hφ hacc (ix1 p) = maxFrom (Ideal.ofBits φ acc) (fun k => v (ix2 p k)) :=
  (Ideal.multiReduction_maximumf_single v acc h hφ hacc (ix1 p)).trans
    (congrArg (fun f => (Finset.univ : Finset (Fin b)).fold max (Ideal.ofBits φ acc) f)
      (funext fun k => congrArg v (lift_row h p k)))

/-- The sum over each row, at row p. -/
theorem multiReduction_add_row {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- The kernel's chain on an f32 [a, b] matrix: the row maxima from -inf as a column spread over the rows,
    subtracted; the exponential; the row sums from zero likewise; the quotient. -/
def rowSoftmax {a b : ℕ} (e : FVec Ideal ⟨2, ![a, b]⟩ .f32) (hR : (⟨2, ![a, b]⟩ : Shape).Reduces [1] ⟨1, ![a]⟩)
    (hC : (⟨1, ![a]⟩ : Shape).ShapeCasts ⟨2, ![a, 1]⟩) (hB : (⟨2, ![a, 1]⟩ : Shape).Broadcasts ⟨2, ![a, b]⟩) :
    FVec Ideal ⟨2, ![a, b]⟩ .f32 :=
  divf
    (exp (subf e (broadcastTo ⟨2, ![a, b]⟩ (shapeCast ⟨2, ![a, 1]⟩
      (multiReduction .maximumf [1] ⟨1, ![a]⟩ e 0xFF800000#32 hR (.inl rfl) rfl) hC) hB)))
    (broadcastTo ⟨2, ![a, b]⟩ (shapeCast ⟨2, ![a, 1]⟩
      (multiReduction .add [1] ⟨1, ![a]⟩
        (exp (subf e (broadcastTo ⟨2, ![a, b]⟩ (shapeCast ⟨2, ![a, 1]⟩
          (multiReduction .maximumf [1] ⟨1, ![a]⟩ e 0xFF800000#32 hR (.inl rfl) rfl) hC) hB)))
        0x00000000#32 hR (.inl rfl) rfl) hC) hB)

/-- Entry (p, c) of the kernel's chain is the softmax of row p at c. -/
theorem rowSoftmax_apply {a b : ℕ} (e : FVec Ideal ⟨2, ![a, b]⟩ .f32) (hR : (⟨2, ![a, b]⟩ : Shape).Reduces [1] ⟨1, ![a]⟩)
    (hC : (⟨1, ![a]⟩ : Shape).ShapeCasts ⟨2, ![a, 1]⟩) (hB : (⟨2, ![a, 1]⟩ : Shape).Broadcasts ⟨2, ![a, b]⟩)
    (p : Fin a) (c : Fin b) :
    rowSoftmax e hR hC hB (ix2 p c) = softmaxFrom (Ideal.ofBits .f32 0xFF800000#32) (fun k => e (ix2 p k)) c := by
  have hm : ∀ c' : Fin b, broadcastTo ⟨2, ![a, b]⟩ (shapeCast ⟨2, ![a, 1]⟩
      (multiReduction .maximumf [1] ⟨1, ![a]⟩ e 0xFF800000#32 hR (.inl rfl) rfl) hC) hB (ix2 p c')
      = maxFrom (Ideal.ofBits .f32 0xFF800000#32) (fun k => e (ix2 p k)) := fun c' =>
    (Cert.LibColumn.broadcastTo_shapeCast_column_apply _ hC hB p c').trans (multiReduction_max_row e _ hR _ _ p)
  have hs : ∀ (u : FVec Ideal ⟨2, ![a, b]⟩ .f32), broadcastTo ⟨2, ![a, b]⟩ (shapeCast ⟨2, ![a, 1]⟩
      (multiReduction .add [1] ⟨1, ![a]⟩ u 0x00000000#32 hR (.inl rfl) rfl) hC) hB (ix2 p c)
      = ∑ k : Fin b, u (ix2 p k) := fun u =>
    (Cert.LibColumn.broadcastTo_shapeCast_column_apply _ hC hB p c).trans (multiReduction_add_row u _ hR _ _ p)
  unfold rowSoftmax softmaxFrom
  refine (divf_apply _ _ _).trans ?_
  rw [hs]
  simp only [exp, subf, Ideal.exp_def, Ideal.subf_def, hm]

/-! ## A host program's reduction along the last axis of an [n, a, b] stack -/

/-- Row (d, p) with position k put back is entry (d, p, k). -/
theorem lift_row3 {n a b : ℕ} (h : (⟨3, ![n, a, b]⟩ : Shape).Reduces [2] ⟨2, ![n, a]⟩) (d : Fin n) (p : Fin a) (k : Fin b) :
    h.lift (ix2 d p) k = ix3 d p k :=
  funext fun c => Fin.ext (by match c with | ⟨0, _⟩ => rfl | ⟨1, _⟩ => rfl | ⟨2, _⟩ => rfl)

/-- The host's maximum along the last axis, at row (d, p): the largest of the initial value and the row's entries. -/
theorem hostReduce_max_row3 {n a b : ℕ} {u : Shape} (x : (⟨3, ![n, a, b]⟩ : Shape).Idx → Ideal .f32) (init : u.Idx → Ideal .f32)
    (h' : (⟨3, ![n, a, b]⟩ : Shape).ReducesTo [2] ⟨2, ![n, a]⟩) (h : (⟨3, ![n, a, b]⟩ : Shape).Reduces [2] ⟨2, ![n, a]⟩)
    (hu : 0 < u.numel) (d : Fin n) (p : Fin a) :
    Host.reduce FloatOps.maximumf x init h' hu (ix2 d p) = maxFrom (init (Shape.Idx.first hu)) (fun k => x (ix3 d p k)) :=
  (Host.reduce_eq_fold_single FloatOps.maximumf x init h' h hu (ix2 d p)).trans
    (congrArg (fun f => (Finset.univ : Finset (Fin b)).fold max (init (Shape.Idx.first hu)) f)
      (funext fun k => congrArg x (lift_row3 h d p k)))

end Cert.LibRowSoftmax

end
-- ==== Proof.Spec.lean ====
/-
  Multi-head attention over the extended reals, entry by entry.

  Arrays are read through their coordinates: a [2, 2048, 1024] activation as a function of (batch, position,
  feature), a [1024, 1024] weight as a function of (output feature, input feature), the additive mask as a
  function of (query, key).  Head h of 16 owns the 64 consecutive features h·64 … h·64 + 63.

  * `proj x w`        : x · wᵀ, entry (b, s, f) = Σ_k x(b, s, k) · w(f, k).
  * `logit Q K mask`  : entry (b, h, i, j) = (Σ_d Q(b, i, h·64+d) · K(b, j, h·64+d)) · (1/8) + mask(i, j), the
                        factor 1/8 written as its f32 word.
  * `wts Q K mask`    : the softmax of each row j ↦ logit(b, h, i, j), centred at the row's maximum taken from -inf.
  * `att Q K V mask`  : entry (b, i, f) = Σ_j wts(b, f / 64, i, j) · V(b, j, f): the heads' outputs side by side.
-/
import Idealize.ShloMosaic.Lib.ValueIdx
import Idealize.ShloMosaic.PureOps.Ideal.Laws
import proofs.«155392_j63067299774603_2_alg».proof.Proof.LibRowSoftmax

noncomputable section

namespace Cert.Attn

open Idealize.ShloMosaic Idealize.ShloMosaic.ValueIdx Cert.LibRowSoftmax

/-- Activations by (batch, position, feature). -/
abbrev T3 := Fin 2 → Fin 2048 → Fin 1024 → EReal
/-- A weight matrix by (output feature, input feature). -/
abbrev T2 := Fin 1024 → Fin 1024 → EReal
/-- The additive mask by (query, key). -/
abbrev TM := Fin 2048 → Fin 2048 → EReal
/-- Attention weights by (batch, head, query, key). -/
abbrev T4 := Fin 2 → Fin 16 → Fin 2048 → Fin 2048 → EReal

/-- A [2, 2048, 1024] array by coordinates. -/
def cur3 (x : (⟨3, ![2, 2048, 1024]⟩ : Shape).Idx → EReal) : T3 := fun b s f => x (ix3 b s f)
/-- A [1024, 1024] array by coordinates. -/
def cur2 (x : (⟨2, ![1024, 1024]⟩ : Shape).Idx → EReal) : T2 := fun f k => x (ix2 f k)
/-- A [2048, 2048] array by coordinates. -/
def curM (x : (⟨2, ![2048, 2048]⟩ : Shape).Idx → EReal) : TM := fun i j => x (ix2 i j)

/-- Feature d of head h. -/
def hcol (h : Fin 16) (d : Fin 64) : Fin 1024 := ⟨h.val * 64 + d.val, by have := h.isLt; have := d.isLt; omega⟩
/-- The head that owns feature f. -/
def hd (f : Fin 1024) : Fin 16 := ⟨f.val / 64, by have := f.isLt; omega⟩
/-- The place of feature f inside its head. -/
def dp (f : Fin 1024) : Fin 64 := ⟨f.val % 64, by omega⟩

theorem hcol_hd_dp (f : Fin 1024) : hcol (hd f) (dp f) = f :=
  Fin.ext (by show f.val / 64 * 64 + f.val % 64 = f.val; omega)

/-- The word of -inf, where every row maximum starts. -/
abbrev negInf : EReal := Ideal.ofBits .f32 0xFF800000#32
/-- The word of 1/8 = 1/√64. -/
abbrev eighth : EReal := Ideal.ofBits .f32 0x3E000000#32

/-- x · wᵀ. -/
def proj (x : T3) (w : T2) : T3 := fun b s f => ∑ k : Fin 1024, x b s k * w f k

/-- Scaled, masked scores of one head. -/
def logit (Q K : T3) (mask : TM) : T4 := fun b h i j =>
  (∑ d : Fin 64, Q b i (hcol h d) * K b j (hcol h d)) * eighth + mask i j

/-- Attention weights: the softmax of each score row. -/
def wts (Q K : T3) (mask : TM) : T4 := fun b h i j =>
  softmaxFrom negInf (fun j' => logit Q K mask b h i j') j

/-- The heads' weighted sums of the values, side by side along the feature axis. -/
def att (Q K V : T3) (mask : TM) : T3 := fun b i f =>
  ∑ j : Fin 2048, wts Q K mask b (hd f) i j * V b j f

end Cert.Attn

end
-- ==== Proof.AttnPay.lean ====
/-
  One grid point of the attention region, entry by entry, at the exact reading of floats as extended reals.

  At a point the body holds a [1, 256, 128] block of projected queries (256 query rows, the 128 features of two
  adjacent heads), [1, 2048, 128] blocks of projected keys and values (all 2048 rows, the same 128 features) and a
  [256, 2048] block of the additive mask.  For each head hh of the pair it takes the 64 features hh·64 … hh·64 + 63,
  forms the scores A·Bᵀ into a zero accumulator, multiplies by the f32 word of 1/8, adds the mask block, and
  normalises each row by the softmax centred at the row's maximum taken from -inf; it stores these weights as slab hh
  of a [1, 2, 256, 2048] tile, multiplies them by the head's 64 value columns, and stores the two heads' products side
  by side as a [1, 256, 128] tile.  Read at an entry: the weights tile at (hh, r, j) is the softmax of score row r of
  head hh at j (`tileW`), and the output tile at (r, f) is Σ_j weights(f / 64, r, j) · v(j, f).
-/
import proofs.«155392_j63067299774603_2_alg».proof.Proof.Gen.KernelIdeal.Frame
import proofs.«155392_j63067299774603_2_alg».proof.Proof.Spec
import proofs.«155392_j63067299774603_2_alg».proof.Proof.LibPlainMatmul
import Idealize.ShloMosaic.Lib.ValueLayout
import Idealize.ShloMosaic.Lib.Pipeline.Value
import Idealize.ShloMosaic.PureOps.Ideal.Laws

set_option maxRecDepth 16384

noncomputable section

namespace Cert.KernelIdeal.AttnPay

open Cert.KernelIdeal Cert.KernelIdeal.Gen Idealize.ShloMosaic Idealize.ShloMosaic.ValueIdx Cert.LibRowSoftmax Cert.Attn

/-! ## The scores of a query tile against all keys -/

abbrev DQK : DotDims S256x64 S2048x64 S256x2048 := dot_S256x64_S2048x64_S256x2048_1_1_0_0_n_n

theorem qk_lhs0 (i : S256x2048.Idx) (q : DQK.contr.Idx) : (DQK.lhsIdx i q 0).val = (i 0).val := by
  unfold DotDims.lhsIdx
  rw [dif_neg (show ¬(0 : Fin S256x64.rank) ∈ DQK.lhsBatch by decide), dif_pos (show (0 : Fin S256x64.rank) ∈ DQK.lhsNonContracting by decide)]
  rfl
theorem qk_lhs1 (i : S256x2048.Idx) (q : DQK.contr.Idx) : (DQK.lhsIdx i q 1).val = (q ⟨0, by decide⟩).val :=
  DQK.lhsIdx_val_of_single rfl i q
theorem qk_rhs0 (i : S256x2048.Idx) (q : DQK.contr.Idx) : (DQK.rhsIdx i q 0).val = (i 1).val := by
  unfold DotDims.rhsIdx
  rw [dif_neg (show ¬(0 : Fin S2048x64.rank) ∈ DQK.rhsBatch by decide), dif_pos (show (0 : Fin S2048x64.rank) ∈ DQK.rhsNonContracting by decide)]
  rfl
theorem qk_rhs1 (i : S256x2048.Idx) (q : DQK.contr.Idx) : (DQK.rhsIdx i q 1).val = (q ⟨0, by decide⟩).val :=
  DQK.rhsIdx_val_of_single rfl i q

/-- Scores of a query tile against all keys: entry (r, j) of A·Bᵀ accumulated into zero. -/
theorem matmul_qk_apply (A : FVec Ideal S256x64 .bf16) (B : FVec Ideal S2048x64 .bf16) (r : Fin 256) (j : Fin 2048) :
    matmul DQK none A B (constant S256x2048 .f32 0x00000000#32) (ix2 r j) = ∑ d : Fin 64, A (ix2 r d) * B (ix2 j d) := by
  refine (Ideal.matmul_constant_zero_apply DQK none A B (ix2 r j)).trans ?_
  rw [← Equiv.sum_comp (ValueIdx.contrEquiv1 DQK 64 rfl rfl).symm]
  refine Finset.sum_congr rfl fun k _ => ?_
  have hk := ValueIdx.contrEquiv1_symm_val DQK 64 rfl rfl k
  have el : DQK.lhsIdx (ix2 r j) ((ValueIdx.contrEquiv1 DQK 64 rfl rfl).symm k) = ix2 r k := funext fun a => Fin.ext (by
    match a with
    | ⟨0, _⟩ => exact qk_lhs0 _ _
    | ⟨1, _⟩ => exact (qk_lhs1 _ _).trans hk)
  have er : DQK.rhsIdx (ix2 r j) ((ValueIdx.contrEquiv1 DQK 64 rfl rfl).symm k) = ix2 j k := funext fun a => Fin.ext (by
    match a with
    | ⟨0, _⟩ => exact qk_rhs0 _ _
    | ⟨1, _⟩ => exact (qk_rhs1 _ _).trans hk)
  rw [el, er]

/-- One head's chain on a query tile: scores scaled by 1/8, the mask tile added, the softmax of each row. -/
def headSoftmax (A : FVec Ideal S256x64 .bf16) (B : FVec Ideal S2048x64 .bf16) (M : Vec Ideal S256x2048 .f32) : FVec Ideal S256x2048 .f32 :=
  rowSoftmax (addf (mulf (matmul DQK none A B (constant S256x2048 .f32 0x00000000#32)) (broadcast S256x2048 (Scalar.ofBits .f32 0x3E000000#32))) M)
    reduces_S256x2048_S256 shapeCasts_S256_S256x1 broadcasts_S256x1_S256x2048

theorem headSoftmax_apply (A : FVec Ideal S256x64 .bf16) (B : FVec Ideal S2048x64 .bf16) (M : Vec Ideal S256x2048 .f32) (r : Fin 256) (j : Fin 2048) :
    headSoftmax A B M (ix2 r j)
      = softmaxFrom negInf (fun j' => (∑ d : Fin 64, A (ix2 r d) * B (ix2 j' d)) * eighth + M (ix2 r j')) j := by
  unfold headSoftmax
  rw [rowSoftmax_apply]
  refine congrArg (fun f => softmaxFrom negInf f j) (funext fun j' => ?_)
  rw [addf_apply, mulf_apply, matmul_qk_apply]
  rfl

theorem pay4_eq (v0 : Vec Ideal S256x2048 .f32) (v1 : Vec Ideal S1x256x64 .bf16) (v3 : Vec Ideal S1x2048x64 .bf16) :
    k3_pay4 v0 v1 v3 = headSoftmax (shapeCast S256x64 v1 shapeCasts_S1x256x64_S256x64) (shapeCast S2048x64 v3 shapeCasts_S1x2048x64_S2048x64) v0 := rfl
theorem pay1_eq (v0 : Vec Ideal S256x2048 .f32) (v26 : FVec Ideal S256x64 .bf16) (v28 : FVec Ideal S2048x64 .bf16) :
    k3_pay1 v0 v26 v28 = headSoftmax v26 v28 v0 := rfl

/-! ## Layout of the body's values -/

theorem cast_1ab_ab {a b : Nat} {α : Type} (v : (⟨3, ![1, a, b]⟩ : Shape).Idx → α) (h : (⟨3, ![1, a, b]⟩ : Shape).ShapeCasts ⟨2, ![a, b]⟩)
    (p : Fin a) (q : Fin b) : shapeCast ⟨2, ![a, b]⟩ v h (ix2 p q) = v (ix3 (0 : Fin 1) p q) :=
  shapeCast_apply v h _ _ (by
    rw [Shape.rowMajor_val_three, Shape.rowMajor_val_two]
    show (0 * a + p.val) * b + q.val = p.val * b + q.val
    simp)

theorem cast_ab_1ab {a b : Nat} {α : Type} (v : (⟨2, ![a, b]⟩ : Shape).Idx → α) (h : (⟨2, ![a, b]⟩ : Shape).ShapeCasts ⟨3, ![1, a, b]⟩)
    (p : Fin a) (q : Fin b) : shapeCast ⟨3, ![1, a, b]⟩ v h (ix3 (0 : Fin 1) p q) = v (ix2 p q) :=
  shapeCast_apply v h _ _ (by
    rw [Shape.rowMajor_val_two, Shape.rowMajor_val_three]
    show p.val * b + q.val = (0 * a + p.val) * b + q.val
    simp)

theorem cast_ab_11ab {a b : Nat} {α : Type} (v : (⟨2, ![a, b]⟩ : Shape).Idx → α) (h : (⟨2, ![a, b]⟩ : Shape).ShapeCasts ⟨4, ![1, 1, a, b]⟩)
    (p : Fin a) (q : Fin b) : shapeCast ⟨4, ![1, 1, a, b]⟩ v h (ix4 (0 : Fin 1) (0 : Fin 1) p q) = v (ix2 p q) :=
  shapeCast_apply v h _ _ (by
    rw [Shape.rowMajor_val_two, Shape.rowMajor_val_four]
    show p.val * b + q.val = ((0 * 1 + 0) * a + p.val) * b + q.val
    simp)

/-- Feature d of the tile's head hh (of its two). -/
def half (hh : Fin 2) (d : Fin 64) : Fin 128 := ⟨hh.val * 64 + d.val, by have := hh.isLt; have := d.isLt; omega⟩

theorem ld_q0 (x0 : Vec Ideal S1x256x128 .bf16) (r : Fin 256) (d : Fin 64) :
    View.ld x0 r3_1 (ix3 (0 : Fin 1) r d) = x0 (ix3 (0 : Fin 1) r (half 0 d)) := by
  show x0 _ = x0 _
  refine congrArg x0 (funext fun a => Fin.ext ?_)
  match a with
  | ⟨0, _⟩ => rfl
  | ⟨1, _⟩ => show 0 + 1 * r.val = r.val; omega
  | ⟨2, _⟩ => show 0 + 1 * d.val = 0 * 64 + d.val; omega
theorem ld_q1 (x0 : Vec Ideal S1x256x128 .bf16) (r : Fin 256) (d : Fin 64) :
    View.ld x0 r3_4 (ix3 (0 : Fin 1) r d) = x0 (ix3 (0 : Fin 1) r (half 1 d)) := by
  show x0 _ = x0 _
  refine congrArg x0 (funext fun a => Fin.ext ?_)
  match a with
  | ⟨0, _⟩ => rfl
  | ⟨1, _⟩ => show 0 + 1 * r.val = r.val; omega
  | ⟨2, _⟩ => show 64 + 1 * d.val = 1 * 64 + d.val; omega
theorem ld_k0 (x1 : Vec Ideal S1x2048x128 .bf16) (j : Fin 2048) (d : Fin 64) :
    View.ld x1 r3_2 (ix3 (0 : Fin 1) j d) = x1 (ix3 (0 : Fin 1) j (half 0 d)) := by
  show x1 _ = x1 _
  refine congrArg x1 (funext fun a => Fin.ext ?_)
  match a with
  | ⟨0, _⟩ => rfl
  | ⟨1, _⟩ => show 0 + 1 * j.val = j.val; omega
  | ⟨2, _⟩ => show 0 + 1 * d.val = 0 * 64 + d.val; omega
theorem ld_k1 (x1 : Vec Ideal S1x2048x128 .bf16) (j : Fin 2048) (d : Fin 64) :
    View.ld x1 r3_5 (ix3 (0 : Fin 1) j d) = x1 (ix3 (0 : Fin 1) j (half 1 d)) := by
  show x1 _ = x1 _
  refine congrArg x1 (funext fun a => Fin.ext ?_)
  match a with
  | ⟨0, _⟩ => rfl
  | ⟨1, _⟩ => show 0 + 1 * j.val = j.val; omega
  | ⟨2, _⟩ => show 64 + 1 * d.val = 1 * 64 + d.val; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The weights one tile holds for its head hh at (r, j), from the tile's q, k and mask blocks. -/
def tileW (x0 : Vec Ideal S1x256x128 .bf16) (x1 : Vec Ideal S1x2048x128 .bf16) (x3 : Vec Ideal S256x2048 .f32)
    (hh : Fin 2) (r : Fin 256) (j : Fin 2048) : EReal :=
  softmaxFrom negInf (fun j' => (∑ d : Fin 64, x0 (ix3 (0 : Fin 1) r (half hh d)) * x1 (ix3 (0 : Fin 1) j' (half hh d))) * eighth + x3 (ix2 r j')) j

theorem head0_apply (x0 : Vec Ideal S1x256x128 .bf16) (x1 : Vec Ideal S1x2048x128 .bf16) (x3 : Vec Ideal S256x2048 .f32) (r : Fin 256) (j : Fin 2048) :
    k3_pay4 (View.ld x3 r3_0) (View.ld x0 r3_1) (View.ld x1 r3_2) (ix2 r j) = tileW x0 x1 x3 0 r j := by
  rw [pay4_eq, headSoftmax_apply, View.ld_unit_zero (S := S256x2048) hz2]
  unfold tileW
  refine congrArg (fun f => softmaxFrom negInf f j) (funext fun j' => ?_)
  refine congrArg (fun s => s * eighth + x3 (ix2 r j')) (Finset.sum_congr rfl fun d _ => ?_)
  rw [cast_1ab_ab, cast_1ab_ab, ld_q0, ld_k0]

theorem head1_apply (x0 : Vec Ideal S1x256x128 .bf16) (x1 : Vec Ideal S1x2048x128 .bf16) (x3 : Vec Ideal S256x2048 .f32) (r : Fin 256) (j : Fin 2048) :
    k3_pay1 (View.ld x3 r3_0) (k3_pay7 (View.ld x0 r3_4)) (k3_pay8 (View.ld x1 r3_5)) (ix2 r j) = tileW x0 x1 x3 1 r j := by
  rw [pay1_eq, headSoftmax_apply, View.ld_unit_zero (S := S256x2048) hz2]
  unfold tileW k3_pay7 k3_pay8
  refine congrArg (fun f => softmaxFrom negInf f j) (funext fun j' => ?_)
  refine congrArg (fun s => s * eighth + x3 (ix2 r j')) (Finset.sum_congr rfl fun d _ => ?_)
  rw [cast_1ab_ab, cast_1ab_ab, ld_q1, ld_k1]

/-! ## What the body leaves in its two output tiles, entry by entry -/

theorem emb36 (r : Fin 256) (j : Fin 2048) :
    (ix4 (0 : Fin 1) (1 : Fin 2) r j : S1x2x256x2048.Idx) = r3_6.emb (ix4 (0 : Fin 1) (0 : Fin 1) r j) := by
  funext a; apply Fin.ext
  match a with
  | ⟨0, _⟩ => rfl
  | ⟨1, _⟩ => rfl
  | ⟨2, _⟩ => show r.val = 0 + 1 * r.val; omega
  | ⟨3, _⟩ => show j.val = 0 + 1 * j.val; omega
theorem emb33 (r : Fin 256) (j : Fin 2048) :
    (ix4 (0 : Fin 1) (0 : Fin 2) r j : S1x2x256x2048.Idx) = r3_3.emb (ix4 (0 : Fin 1) (0 : Fin 1) r j) := by
  funext a; apply Fin.ext
  match a with
  | ⟨0, _⟩ => rfl
  | ⟨1, _⟩ => rfl
  | ⟨2, _⟩ => show r.val = 0 + 1 * r.val; omega
  | ⟨3, _⟩ => show j.val = 0 + 1 * j.val; omega
theorem not_mem36 (r : Fin 256) (j : Fin 2048) : (ix4 (0 : Fin 1) (0 : Fin 2) r j : S1x2x256x2048.Idx) ∉ r3_6.set := by
  rw [Rect.mem_set_unit]
  intro h
  have h1 : (1 : Nat) ≤ 0 := (h 1).1
  omega

theorem fin2_cases (hh : Fin 2) : hh = 0 ∨ hh = 1 := by
  rcases hh with ⟨v, hv⟩
  have : v = 0 ∨ v = 1 := by omega
  rcases this with rfl | rfl
  · exact Or.inl rfl
  · exact Or.inr rfl

theorem out3_4_head0 (x0 : Vec Ideal S1x256x128 .bf16) (x1 x2 : Vec Ideal S1x2048x128 .bf16) (x3 : Vec Ideal S256x2048 .f32)
    (r : Fin 256) (j : Fin 2048) :
    out3_4 x0 x1 x2 x3 (ix4 (0 : Fin 1) (0 : Fin 2) r j) = tileW x0 x1 x3 0 r j := by
  unfold out3_4
  refine (View.canon_cons_of_not_mem (Val := Elt Ideal)
    (⟨r3_6, k3_pay2 (View.ld x3 r3_0) (k3_pay7 (View.ld x0 r3_4)) (k3_pay8 (View.ld x1 r3_5))⟩ : View.Piece (Elt Ideal) S1x2x256x2048 .f32)
    [⟨r3_3, k3_pay5 (View.ld x3 r3_0) (View.ld x0 r3_1) (View.ld x1 r3_2)⟩] (not_mem36 r j)).trans ?_
  refine (congrArg _ (emb33 r j)).trans ?_
  refine (View.canon_cons_emb (Val := Elt Ideal) r3_3 _ [] (ix4 (0 : Fin 1) (0 : Fin 1) r j)).trans ?_
  unfold k3_pay5
  refine (cast_ab_11ab _ _ r j).trans ?_
  exact head0_apply x0 x1 x3 r j

theorem out3_4_head1 (x0 : Vec Ideal S1x256x128 .bf16) (x1 x2 : Vec Ideal S1x2048x128 .bf16) (x3 : Vec Ideal S256x2048 .f32)
    (r : Fin 256) (j : Fin 2048) :
    out3_4 x0 x1 x2 x3 (ix4 (0 : Fin 1) (1 : Fin 2) r j) = tileW x0 x1 x3 1 r j := by
  unfold out3_4
  refine (congrArg _ (emb36 r j)).trans ?_
  refine (View.canon_cons_emb (Val := Elt Ideal) r3_6 _ _ (ix4 (0 : Fin 1) (0 : Fin 1) r j)).trans ?_
  unfold k3_pay2
  refine (cast_ab_11ab _ _ r j).trans ?_
  exact head1_apply x0 x1 x3 r j

/-- The weights tile: head hh of the pair, query row r, key j. -/
theorem out3_4_apply (x0 : Vec Ideal S1x256x128 .bf16) (x1 x2 : Vec Ideal S1x2048x128 .bf16) (x3 : Vec Ideal S256x2048 .f32)
    (hh : Fin 2) (r : Fin 256) (j : Fin 2048) :
    out3_4 x0 x1 x2 x3 (ix4 (0 : Fin 1) hh r j) = tileW x0 x1 x3 hh r j := by
  rcases fin2_cases hh with rfl | rfl
  · exact out3_4_head0 x0 x1 x2 x3 r j
  · exact out3_4_head1 x0 x1 x2 x3 r j

local notation "DWV" => dot_S256x2048_S2048x64_S256x64_1_0_0_1_n_n

theorem matmul_wv_apply (W : FVec Ideal S256x2048 .bf16) (Vh : FVec Ideal S2048x64 .bf16) (r : Fin 256) (d : Fin 64) :
    matmul DWV none W Vh (constant S256x64 .f32 0x00000000#32) (ix2 r d) = ∑ j : Fin 2048, W (ix2 r j) * Vh (ix2 j d) :=
  Idealize.ShloMosaic.PlainMatmul.matmul_plain_zero_apply none W Vh r d

theorem ld_v0 (x2 : Vec Ideal S1x2048x128 .bf16) (j : Fin 2048) (d : Fin 64) :
    View.ld x2 r3_2 (ix3 (0 : Fin 1) j d) = x2 (ix3 (0 : Fin 1) j (half 0 d)) := ld_k0 x2 j d
theorem ld_v1 (x2 : Vec Ideal S1x2048x128 .bf16) (j : Fin 2048) (d : Fin 64) :
    View.ld x2 r3_5 (ix3 (0 : Fin 1) j d) = x2 (ix3 (0 : Fin 1) j (half 1 d)) := ld_k1 x2 j d

/-- The head of the pair that owns column f of the tile, and f's place in it. -/
def fhalf (f : Fin 128) : Fin 2 := ⟨f.val / 64, by have := f.isLt; omega⟩
def fplace (f : Fin 128) : Fin 64 := ⟨f.val % 64, by omega⟩
theorem half_fhalf (f : Fin 128) : half (fhalf f) (fplace f) = f := Fin.ext (by show f.val / 64 * 64 + f.val % 64 = f.val; omega)

/-- The attention-output tile: row r, column f: the weights of f's head against the values' column f. -/
theorem out3_5_apply (x0 : Vec Ideal S1x256x128 .bf16) (x1 x2 : Vec Ideal S1x2048x128 .bf16) (x3 : Vec Ideal S256x2048 .f32)
    (r : Fin 256) (f : Fin 128) :
    out3_5 x0 x1 x2 x3 (ix3 (0 : Fin 1) r f) = ∑ j : Fin 2048, tileW x0 x1 x3 (fhalf f) r j * x2 (ix3 (0 : Fin 1) j f) := by
  unfold out3_5
  rw [View.canon_unit_zero hz3]
  unfold k3_pay3
  rw [cast_ab_1ab, truncf_apply]
  by_cases hf : f.val < 64
  · have e1 : fhalf f = 0 := Fin.ext (by show f.val / 64 = 0; omega)
    have e2 : half 0 ⟨f.val, hf⟩ = f := Fin.ext (by show 0 * 64 + f.val = f.val; omega)
    rw [concatenate_pair_apply_left (t := S256x128) (s₁ := S256x64) (s₂ := S256x64) (1 : Fin 2) _ _ concatenates_S256x64_S256x64_S256x128_d1 (ix2 r f) rfl (ix2 r (⟨f.val, hf⟩ : Fin 64))
      (fun b => by match b with | ⟨0, _⟩ => rfl | ⟨1, _⟩ => rfl)]
    unfold k3_pay6
    rw [matmul_wv_apply, e1]
    refine Finset.sum_congr rfl fun j _ => ?_
    rw [truncf_apply, head0_apply, cast_1ab_ab, ld_v0, e2]
  · have hf' : f.val - 64 < 64 := by have := f.isLt; omega
    have e1 : fhalf f = 1 := Fin.ext (by show f.val / 64 = 1; have := f.isLt; omega)
    have e2 : half 1 ⟨f.val - 64, hf'⟩ = f := Fin.ext (by show 1 * 64 + (f.val - 64) = f.val; omega)
    rw [concatenate_pair_apply_right (t := S256x128) (s₁ := S256x64) (s₂ := S256x64) (1 : Fin 2) _ _ concatenates_S256x64_S256x64_S256x128_d1 (ix2 r f) rfl rfl (ix2 r (⟨f.val - 64, hf'⟩ : Fin 64))
      (fun b hb => by match b with | ⟨0, _⟩ => rfl | ⟨1, _⟩ => exact absurd rfl hb)
      (by show (f.val - 64) + 64 = f.val; omega)]
    rw [matmul_wv_apply, e1]
    refine Finset.sum_congr rfl fun j _ => ?_
    rw [truncf_apply, head1_apply, cast_1ab_ab, ld_v1, e2]

end Cert.KernelIdeal.AttnPay

end
-- ==== Proof.AttnAt.lean ====
/-
  The attention region's two output arrays, entry by entry, from the arrays the region finds.

  The grid has a point per (query tile of 256 rows, batch, pair of heads).  At a point the q operand's block is
  rows [256·qi, 256·qi + 256) and features [128·hp, 128·hp + 128) of batch b, the k and v operands' blocks are all
  2048 rows of those features, the mask's block is its rows [256·qi, 256·qi + 256); the weights tile is heads 2·hp
  and 2·hp + 1, those query rows, all keys; the output tile is those rows and features.  So a tile entry is the
  whole-array softmax weight (resp. weighted sum of values) at the tile's place, and the tiles fill both arrays.
-/
import proofs.«155392_j63067299774603_2_alg».proof.Proof.AttnPay
import Idealize.ShloMosaic.Lib.Pipeline.Value

set_option maxRecDepth 16384

noncomputable section

namespace Cert.KernelIdeal.AttnAt

open Cert.KernelIdeal Cert.KernelIdeal.Gen Idealize.ShloMosaic Idealize.ShloMosaic.TcCoe Idealize.ShloMosaic.ValueIdx Cert.LibRowSoftmax Cert.Attn
open Cert.KernelIdeal.AttnPay
open Idealize.ShloMosaic.Pipeline (Dat)

variable (V : (c : Dev nD) → (b : Ref sig .tc) → Buf (Elt Ideal) ((c : Thread nD τ).loc b))

/-- How the six operands' block indices move together over the grid, and their ranges: window 4's (the weights')
    index is (batch, head pair, query tile, 0). -/
theorem idx_facts : ∀ t : Fin cfg3.N,
    win3_0.index t (0 : Fin 3) = win3_4.index t (0 : Fin 4)
    ∧ win3_0.index t (1 : Fin 3) = win3_4.index t (2 : Fin 4)
    ∧ win3_0.index t (2 : Fin 3) = win3_4.index t (1 : Fin 4)
    ∧ win3_1.index t (0 : Fin 3) = win3_4.index t (0 : Fin 4)
    ∧ win3_1.index t (1 : Fin 3) = 0
    ∧ win3_1.index t (2 : Fin 3) = win3_4.index t (1 : Fin 4)
    ∧ win3_2.index t (0 : Fin 3) = win3_4.index t (0 : Fin 4)
    ∧ win3_2.index t (1 : Fin 3) = 0
    ∧ win3_2.index t (2 : Fin 3) = win3_4.index t (1 : Fin 4)
    ∧ win3_3.index t (0 : Fin 2) = win3_4.index t (2 : Fin 4)
    ∧ win3_3.index t (1 : Fin 2) = 0
    ∧ win3_4.index t (3 : Fin 4) = 0
    ∧ win3_5.index t (0 : Fin 3) = win3_4.index t (0 : Fin 4)
    ∧ win3_5.index t (1 : Fin 3) = win3_4.index t (2 : Fin 4)
    ∧ win3_5.index t (2 : Fin 3) = win3_4.index t (1 : Fin 4)
    ∧ win3_4.index t (0 : Fin 4) ≤ 1 ∧ win3_4.index t (1 : Fin 4) ≤ 7 ∧ win3_4.index t (2 : Fin 4) ≤ 7 :=
  (by decide +kernel : ∀ t : Fin grid3.N, _)

/-- Every (batch, head pair, query tile) is some point's. -/
theorem idx_onto : ∀ (q0 : Fin 2) (q1 : Fin 8) (q2 : Fin 8), ∃ t : Fin cfg3.N,
    win3_4.index t (0 : Fin 4) = q0.val ∧ win3_4.index t (1 : Fin 4) = q1.val ∧ win3_4.index t (2 : Fin 4) = q2.val :=
  (by decide +kernel : ∀ (q0 : Fin 2) (q1 : Fin 8) (q2 : Fin 8), ∃ t : Fin grid3.N,
    win3_4.index t (0 : Fin 4) = q0.val ∧ win3_4.index t (1 : Fin 4) = q1.val ∧ win3_4.index t (2 : Fin 4) = q2.val)

/-! ## The whole-array functions -/

/-- The weights array the region leaves: the Spec's `wts` of the q, k projections and the mask as the region finds them. -/
def GW (c : Dev nD) : S2x16x2048x2048.Idx → EReal := fun i =>
  wts (cur3 (V c main_v10)) (cur3 (V c main_v13)) (curM (V c main_arg3))
    ⟨(i 0).val, (i 0).isLt⟩ ⟨(i 1).val, (i 1).isLt⟩ ⟨(i 2).val, (i 2).isLt⟩ ⟨(i 3).val, (i 3).isLt⟩

/-- The attention-output array the region leaves: the Spec's `att`. -/
def GA (c : Dev nD) : S2x2048x1024.Idx → EReal := fun i =>
  att (cur3 (V c main_v10)) (cur3 (V c main_v13)) (cur3 (V c main_v16)) (curM (V c main_arg3))
    ⟨(i 0).val, (i 0).isLt⟩ ⟨(i 1).val, (i 1).isLt⟩ ⟨(i 2).val, (i 2).isLt⟩

/-! ## A tile's weights are the whole arrays' -/

theorem tileW_eq (Q K : (⟨3, ![2, 2048, 1024]⟩ : Shape).Idx → EReal) (M : (⟨2, ![2048, 2048]⟩ : Shape).Idx → EReal)
    (x0 : Vec Ideal S1x256x128 .bf16) (x1 : Vec Ideal S1x2048x128 .bf16) (x3 : Vec Ideal S256x2048 .f32)
    (b : Fin 2) (h : Fin 16) (i : Fin 2048) (hh : Fin 2) (r : Fin 256)
    (hq : ∀ d : Fin 64, x0 (ix3 (0 : Fin 1) r (half hh d)) = Q (ix3 b i (hcol h d)))
    (hk : ∀ (j' : Fin 2048) (d : Fin 64), x1 (ix3 (0 : Fin 1) j' (half hh d)) = K (ix3 b j' (hcol h d)))
    (hm : ∀ j' : Fin 2048, x3 (ix2 r j') = M (ix2 i j')) (j : Fin 2048) :
    tileW x0 x1 x3 hh r j = wts (cur3 Q) (cur3 K) (curM M) b h i j := by
  unfold tileW wts logit cur3 curM
  simp only [hq, hk, hm]

theorem GW_at (c : Dev nD) (i : S2x16x2048x2048.Idx) (b : Fin 2) (h : Fin 16) (q j : Fin 2048)
    (h0 : (i 0).val = b.val) (h1 : (i 1).val = h.val) (h2 : (i 2).val = q.val) (h3 : (i 3).val = j.val) :
    GW V c i = wts (cur3 (V c main_v10)) (cur3 (V c main_v13)) (curM (V c main_arg3)) b h q j := by
  unfold GW
  rw [show (⟨(i 0).val, (i 0).isLt⟩ : Fin 2) = b from Fin.ext h0, show (⟨(i 1).val, (i 1).isLt⟩ : Fin 16) = h from Fin.ext h1,
    show (⟨(i 2).val, (i 2).isLt⟩ : Fin 2048) = q from Fin.ext h2, show (⟨(i 3).val, (i 3).isLt⟩ : Fin 2048) = j from Fin.ext h3]

theorem GA_at (c : Dev nD) (i : S2x2048x1024.Idx) (b : Fin 2) (q : Fin 2048) (f : Fin 1024)
    (h0 : (i 0).val = b.val) (h1 : (i 1).val = q.val) (h2 : (i 2).val = f.val) :
    GA V c i = att (cur3 (V c main_v10)) (cur3 (V c main_v13)) (cur3 (V c main_v16)) (curM (V c main_arg3)) b q f := by
  unfold GA
  rw [show (⟨(i 0).val, (i 0).isLt⟩ : Fin 2) = b from Fin.ext h0, show (⟨(i 1).val, (i 1).isLt⟩ : Fin 2048) = q from Fin.ext h1,
    show (⟨(i 2).val, (i 2).isLt⟩ : Fin 1024) = f from Fin.ext h2]

/-! ## The operands' blocks at a point, read off the arrays -/

theorem iblk_q (c : Dev nD) (t : Fin cfg3.N) (r : Fin 256) (fl : Fin 128) (i : S2x2048x1024.Idx)
    (h0 : (i 0).val = win3_4.index t (0 : Fin 4)) (h1 : (i 1).val = win3_4.index t (2 : Fin 4) * 256 + r.val)
    (h2 : (i 2).val = win3_4.index t (1 : Fin 4) * 128 + fl.val) :
    iblk3 V c 0 t (ix3 (0 : Fin 1) r fl) = V c main_v10 i := by
  obtain ⟨e0, e1, e2, -⟩ := idx_facts t
  show V c main_v10 (((cfg3.win 0).blk t).view.emb (ix3 (0 : Fin 1) r fl)) = V c main_v10 i
  refine congrArg _ (funext fun a => Fin.ext ?_)
  match a with
  | ⟨0, _⟩ => show win3_0.index t (0 : Fin 3) * 1 + 1 * 0 = (i 0).val; omega
  | ⟨1, _⟩ => show win3_0.index t (1 : Fin 3) * 256 + 1 * r.val = (i 1).val; omega
  | ⟨2, _⟩ => show win3_0.index t (2 : Fin 3) * 128 + 1 * fl.val = (i 2).val; omega

theorem iblk_k (c : Dev nD) (t : Fin cfg3.N) (j' : Fin 2048) (fl : Fin 128) (i : S2x2048x1024.Idx)
    (h0 : (i 0).val = win3_4.index t (0 : Fin 4)) (h1 : (i 1).val = j'.val)
    (h2 : (i 2).val = win3_4.index t (1 : Fin 4) * 128 + fl.val) :
    iblk3 V c 1 t (ix3 (0 : Fin 1) j' fl) = V c main_v13 i := by
  obtain ⟨-, -, -, e3, e4, e5, -⟩ := idx_facts t
  show V c main_v13 (((cfg3.win 1).blk t).view.emb (ix3 (0 : Fin 1) j' fl)) = V c main_v13 i
  refine congrArg _ (funext fun a => Fin.ext ?_)
  match a with
  | ⟨0, _⟩ => show win3_1.index t (0 : Fin 3) * 1 + 1 * 0 = (i 0).val; omega
  | ⟨1, _⟩ => show win3_1.index t (1 : Fin 3) * 2048 + 1 * j'.val = (i 1).val; omega
  | ⟨2, _⟩ => show win3_1.index t (2 : Fin 3) * 128 + 1 * fl.val = (i 2).val; omega

theorem iblk_v (c : Dev nD) (t : Fin cfg3.N) (j' : Fin 2048) (fl : Fin 128) (i : S2x2048x1024.Idx)
    (h0 : (i 0).val = win3_4.index t (0 : Fin 4)) (h1 : (i 1).val = j'.val)
    (h2 : (i 2).val = win3_4.index t (1 : Fin 4) * 128 + fl.val) :
    iblk3 V c 2 t (ix3 (0 : Fin 1) j' fl) = V c main_v16 i := by
  obtain ⟨-, -, -, -, -, -, e6, e7, e8, -⟩ := idx_facts t
  show V c main_v16 (((cfg3.win 2).blk t).view.emb (ix3 (0 : Fin 1) j' fl)) = V c main_v16 i
  refine congrArg _ (funext fun a => Fin.ext ?_)
  match a with
  | ⟨0, _⟩ => show win3_2.index t (0 : Fin 3) * 1 + 1 * 0 = (i 0).val; omega
  | ⟨1, _⟩ => show win3_2.index t (1 : Fin 3) * 2048 + 1 * j'.val = (i 1).val; omega
  | ⟨2, _⟩ => show win3_2.index t (2 : Fin 3) * 128 + 1 * fl.val = (i 2).val; omega

theorem iblk_m (c : Dev nD) (t : Fin cfg3.N) (r : Fin 256) (j' : Fin 2048) (i : S2048x2048.Idx)
    (h0 : (i 0).val = win3_4.index t (2 : Fin 4) * 256 + r.val) (h1 : (i 1).val = j'.val) :
    iblk3 V c 3 t (ix2 r j') = V c main_arg3 i := by
  obtain ⟨-, -, -, -, -, -, -, -, -, e9, e10, -⟩ := idx_facts t
  show V c main_arg3 (((cfg3.win 3).blk t).view.emb (ix2 r j')) = V c main_arg3 i
  refine congrArg _ (funext fun a => Fin.ext ?_)
  match a with
  | ⟨0, _⟩ => show win3_3.index t (0 : Fin 2) * 256 + 1 * r.val = (i 0).val; omega
  | ⟨1, _⟩ => show win3_3.index t (1 : Fin 2) * 2048 + 1 * j'.val = (i 1).val; omega

/-! ## What a point writes back is its block of the whole-array function -/

theorem flushedW_eq (c : Dev nD) (t : Fin cfg3.N) :
    (dat3 V c).flushed 4 t = ((cfg3.win 4).blk t).view.read (Elt Ideal) (GW V c) := by
  show (cfg3.win 4).cut (grid3.coords t) ((dat3 V c).after 4 t) = _
  rw [after3_4]
  funext y
  obtain ⟨y0, hh, r, j, rfl⟩ : ∃ (y0 : Fin 1) (hh : Fin 2) (r : Fin 256) (j : Fin 2048), y = ix4 y0 hh r j :=
    ⟨y 0, y 1, y 2, y 3, eq_ix4 y⟩
  obtain rfl : y0 = 0 := Subsingleton.elim _ _
  obtain ⟨-, -, -, -, -, -, -, -, -, -, -, e11, -, -, -, b0, b1, b2⟩ := idx_facts t
  have hhlt := hh.isLt
  have rlt := r.isLt
  show out3_4 (iblk3 V c 0 t) (iblk3 V c 1 t) (iblk3 V c 2 t) (iblk3 V c 3 t) (ix4 (0 : Fin 1) hh r j)
      = GW V c (((cfg3.win 4).blk t).view.emb (ix4 (0 : Fin 1) hh r j))
  refine ((out3_4_apply _ _ _ _ hh r j).trans ?_).trans
    (GW_at V c _ ⟨win3_4.index t (0 : Fin 4), by omega⟩ ⟨win3_4.index t (1 : Fin 4) * 2 + hh.val, by omega⟩
      ⟨win3_4.index t (2 : Fin 4) * 256 + r.val, by omega⟩ j
      (by show win3_4.index t (0 : Fin 4) * 1 + 1 * 0 = win3_4.index t (0 : Fin 4); omega)
      (by show win3_4.index t (1 : Fin 4) * 2 + 1 * hh.val = win3_4.index t (1 : Fin 4) * 2 + hh.val; omega)
      (by show win3_4.index t (2 : Fin 4) * 256 + 1 * r.val = win3_4.index t (2 : Fin 4) * 256 + r.val; omega)
      (by show win3_4.index t (3 : Fin 4) * 2048 + 1 * j.val = j.val; omega)).symm
  refine tileW_eq (V c main_v10) (V c main_v13) (V c main_arg3) _ _ _ _ _ _ hh r ?_ ?_ ?_ j
  · intro d
    refine iblk_q V c t r (half hh d) _ rfl rfl ?_
    show (win3_4.index t (1 : Fin 4) * 2 + hh.val) * 64 + d.val = win3_4.index t (1 : Fin 4) * 128 + (hh.val * 64 + d.val)
    omega
  · intro j' d
    refine iblk_k V c t j' (half hh d) _ rfl rfl ?_
    show (win3_4.index t (1 : Fin 4) * 2 + hh.val) * 64 + d.val = win3_4.index t (1 : Fin 4) * 128 + (hh.val * 64 + d.val)
    omega
  · intro j'
    exact iblk_m V c t r j' _ rfl rfl

theorem flushedA_eq (c : Dev nD) (t : Fin cfg3.N) :
    (dat3 V c).flushed 5 t = ((cfg3.win 5).blk t).view.read (Elt Ideal) (GA V c) := by
  show (cfg3.win 5).cut (grid3.coords t) ((dat3 V c).after 5 t) = _
  rw [after3_5]
  funext y
  obtain ⟨y0, r, fl, rfl⟩ : ∃ (y0 : Fin 1) (r : Fin 256) (fl : Fin 128), y = ix3 y0 r fl := ⟨y 0, y 1, y 2, eq_ix3 y⟩
  obtain rfl : y0 = 0 := Subsingleton.elim _ _
  obtain ⟨-, -, -, -, -, -, -, -, -, -, -, -, e12, e13, e14, b0, b1, b2⟩ := idx_facts t
  have rlt := r.isLt
  have fllt := fl.isLt
  show out3_5 (iblk3 V c 0 t) (iblk3 V c 1 t) (iblk3 V c 2 t) (iblk3 V c 3 t) (ix3 (0 : Fin 1) r fl)
      = GA V c (((cfg3.win 5).blk t).view.emb (ix3 (0 : Fin 1) r fl))
  refine ((out3_5_apply _ _ _ _ r fl).trans ?_).trans
    (GA_at V c _ ⟨win3_4.index t (0 : Fin 4), by omega⟩ ⟨win3_4.index t (2 : Fin 4) * 256 + r.val, by omega⟩
      ⟨win3_4.index t (1 : Fin 4) * 128 + fl.val, by omega⟩
      (by show win3_5.index t (0 : Fin 3) * 1 + 1 * 0 = win3_4.index t (0 : Fin 4); omega)
      (by show win3_5.index t (1 : Fin 3) * 256 + 1 * r.val = win3_4.index t (2 : Fin 4) * 256 + r.val; omega)
      (by show win3_5.index t (2 : Fin 3) * 128 + 1 * fl.val = win3_4.index t (1 : Fin 4) * 128 + fl.val; omega)).symm
  unfold att
  refine Finset.sum_congr rfl fun j _ => ?_
  refine congrArg₂ (· * ·) ?_ ?_
  · refine tileW_eq (V c main_v10) (V c main_v13) (V c main_arg3) _ _ _ _ _ _ (fhalf fl) r ?_ ?_ ?_ j
    · intro d
      refine iblk_q V c t r (half (fhalf fl) d) _ rfl rfl ?_
      show (win3_4.index t (1 : Fin 4) * 128 + fl.val) / 64 * 64 + d.val = win3_4.index t (1 : Fin 4) * 128 + (fl.val / 64 * 64 + d.val)
      omega
    · intro j' d
      refine iblk_k V c t j' (half (fhalf fl) d) _ rfl rfl ?_
      show (win3_4.index t (1 : Fin 4) * 128 + fl.val) / 64 * 64 + d.val = win3_4.index t (1 : Fin 4) * 128 + (fl.val / 64 * 64 + d.val)
      omega
    · intro j'
      exact iblk_m V c t r j' _ rfl rfl
  · exact iblk_v V c t j fl _ rfl rfl rfl

/-! ## The tiles fill the arrays -/

theorem mem_blkW (t : Fin cfg3.N) (i : S2x16x2048x2048.Idx) :
    i ∈ ((cfg3.win 4).blk t).view.set ↔ ∀ a : Fin 4, win3_4.index t a * S1x2x256x2048.size a ≤ (i a).val
      ∧ (i a).val < win3_4.index t a * S1x2x256x2048.size a + S1x2x256x2048.size a := by
  show i ∈ ((View.whole main_v17_0).slice (win3_4.rect t)).set ↔ _
  rw [View.set_slice_whole, Rect.mem_set_unit]
  exact Iff.rfl

theorem mem_blkA (t : Fin cfg3.N) (i : S2x2048x1024.Idx) :
    i ∈ ((cfg3.win 5).blk t).view.set ↔ ∀ a : Fin 3, win3_5.index t a * S1x256x128.size a ≤ (i a).val
      ∧ (i a).val < win3_5.index t a * S1x256x128.size a + S1x256x128.size a := by
  show i ∈ ((View.whole main_v17_1).slice (win3_5.rect t)).set ↔ _
  rw [View.set_slice_whole, Rect.mem_set_unit]
  exact Iff.rfl

theorem coverW (i : S2x16x2048x2048.Idx) :
    ∃ t : Fin cfg3.N, (cfg3.win 4).flush t = true ∧ i ∈ ((cfg3.win 4).blk t).view.set := by
  have h0 : (i 0).val < 2 := (i 0).isLt
  have h1 : (i 1).val < 16 := (i 1).isLt
  have h2 : (i 2).val < 2048 := (i 2).isLt
  have h3 : (i 3).val < 2048 := (i 3).isLt
  obtain ⟨t, q0, q1, q2⟩ := idx_onto ⟨(i 0).val, h0⟩ ⟨(i 1).val / 2, by omega⟩ ⟨(i 2).val / 256, by omega⟩
  obtain ⟨-, -, -, -, -, -, -, -, -, -, -, e11, -⟩ := idx_facts t
  have q0' : win3_4.index t (0 : Fin 4) = (i 0).val := q0
  have q1' : win3_4.index t (1 : Fin 4) = (i 1).val / 2 := q1
  have q2' : win3_4.index t (2 : Fin 4) = (i 2).val / 256 := q2
  refine ⟨t, flush3_4 t, ?_⟩
  rw [mem_blkW]
  intro a
  match a with
  | ⟨0, _⟩ => show win3_4.index t (0 : Fin 4) * 1 ≤ (i 0).val ∧ (i 0).val < win3_4.index t (0 : Fin 4) * 1 + 1; omega
  | ⟨1, _⟩ => show win3_4.index t (1 : Fin 4) * 2 ≤ (i 1).val ∧ (i 1).val < win3_4.index t (1 : Fin 4) * 2 + 2; omega
  | ⟨2, _⟩ => show win3_4.index t (2 : Fin 4) * 256 ≤ (i 2).val ∧ (i 2).val < win3_4.index t (2 : Fin 4) * 256 + 256; omega
  | ⟨3, _⟩ => show win3_4.index t (3 : Fin 4) * 2048 ≤ (i 3).val ∧ (i 3).val < win3_4.index t (3 : Fin 4) * 2048 + 2048; omega

theorem coverA (i : S2x2048x1024.Idx) :
    ∃ t : Fin cfg3.N, (cfg3.win 5).flush t = true ∧ i ∈ ((cfg3.win 5).blk t).view.set := by
  have h0 : (i 0).val < 2 := (i 0).isLt
  have h1 : (i 1).val < 2048 := (i 1).isLt
  have h2 : (i 2).val < 1024 := (i 2).isLt
  obtain ⟨t, q0, q1, q2⟩ := idx_onto ⟨(i 0).val, h0⟩ ⟨(i 2).val / 128, by omega⟩ ⟨(i 1).val / 256, by omega⟩
  obtain ⟨-, -, -, -, -, -, -, -, -, -, -, -, e12, e13, e14, -⟩ := idx_facts t
  have q0' : win3_4.index t (0 : Fin 4) = (i 0).val := q0
  have q1' : win3_4.index t (1 : Fin 4) = (i 2).val / 128 := q1
  have q2' : win3_4.index t (2 : Fin 4) = (i 1).val / 256 := q2
  refine ⟨t, flush3_5 t, ?_⟩
  rw [mem_blkA]
  intro a
  match a with
  | ⟨0, _⟩ => show win3_5.index t (0 : Fin 3) * 1 ≤ (i 0).val ∧ (i 0).val < win3_5.index t (0 : Fin 3) * 1 + 1; omega
  | ⟨1, _⟩ => show win3_5.index t (1 : Fin 3) * 256 ≤ (i 1).val ∧ (i 1).val < win3_5.index t (1 : Fin 3) * 256 + 256; omega
  | ⟨2, _⟩ => show win3_5.index t (2 : Fin 3) * 128 ≤ (i 2).val ∧ (i 2).val < win3_5.index t (2 : Fin 3) * 128 + 128; omega

/-! ## The two arrays after the region -/

theorem arrW (c : Dev nD) : (dat3 V c).arrAt 4 cfg3.N = GW V c :=
  (dat3 V c).arrAt_eq_of_cover 4 (GW V c) (fun t _ => flushedW_eq V c t) coverW

theorem arrA (c : Dev nD) : (dat3 V c).arrAt 5 cfg3.N = GA V c :=
  (dat3 V c).arrAt_eq_of_cover 5 (GA V c) (fun t _ => flushedA_eq V c t) coverA

/-- The weights array at (batch, head, query, key). -/
theorem w_at (c : Dev nD) (b : Fin 2) (h : Fin 16) (i j : Fin 2048) :
    (dat3 V c).arrAt 4 cfg3.N (ix4 b h i j) = wts (cur3 (V c main_v10)) (cur3 (V c main_v13)) (curM (V c main_arg3)) b h i j :=
  (congrFun (arrW V c) (ix4 b h i j)).trans (GW_at V c _ b h i j rfl rfl rfl rfl)

/-- The attention-output array at (batch, query, feature). -/
theorem a_at (c : Dev nD) (b : Fin 2) (i : Fin 2048) (f : Fin 1024) :
    (dat3 V c).arrAt 5 cfg3.N (ix3 b i f)
      = att (cur3 (V c main_v10)) (cur3 (V c main_v13)) (cur3 (V c main_v16)) (curM (V c main_arg3)) b i f :=
  (congrFun (arrA V c) (ix3 b i f)).trans (GA_at V c _ b i f rfl rfl rfl)

end Cert.KernelIdeal.AttnAt

end
-- ==== Proof.Chain.lean ====
/- The contents of the idealized kernel's buffers, read back through @main's host operations.

   @main is eleven segments: six stretches of host operations around five pipelined regions. The
   fold `Gen.W0 … Gen.W11` gives the TensorCore's buffer contents at each segment boundary
   (`Gen.VK` is `Gen.WK` read at the TensorCore's references): a stretch `hostOpsJ` rewrites exactly the
   result buffer of each of its operations (`StableHlo.after`), a region leaves each of its window
   arrays at what its write-backs fold to (`Dat.arrAt … N`) and every other buffer as entered.

   The host operations are: the first stretch transposes each weight matrix [1024,1024] and converts
   it to bf16 (`main_v1, main_v3, main_v5, main_v7`) and reshapes the query input to [4096,1024]
   (`main_v8`); each later stretch reshapes the preceding region's result between [4096,1024] and
   [2,2048,1024], and (before regions 1 and 2) reshapes the next input.

   Each equation below names one buffer at one boundary and says what it holds, as a function of the
   launch memory `m` or of the preceding region's result array. Together they link the two returned
   buffers, through every region's operands, back to the eight arguments:
     * the returned buffers at the end (`W11_v20`, `W11_v17_0`);
     * region 4's operands at its entry (`V9_v18`, `V9_v7`);
     * region 3's four operands at its entry (`V7_v10`, `V7_v13`, `V7_v16`, `V7_arg3`);
     * the operands of regions 0, 1, 2 at their entries (`V1_v8`, `V1_v1`, `V3_v11`, `V3_v3`, `V5_v14`, `V5_v5`).
   Each proof walks the fold backwards one boundary at a time: through a stretch, the buffer is either
   the result of one of its operations (the operation's function of its operand's contents) or is
   written by none (unchanged); through a region, the buffer is one of its arrays or none of them. -/
import proofs.«155392_j63067299774603_2_alg».proof.Proof.Gen.KernelIdeal.Frame
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ) (ρ : Dev nD → PrngReg)

/-- The returned output: the last stretch is one reshape, of the output projection's result array
    (region 4's window 2, `main_v19`) as the region leaves it, [4096,1024] read as [2,2048,1024]. -/
theorem W11_v20 (c : Dev nD) :
    W11 m ρ c (Proc.devRef .tc main_v20)
      = shapeCast S2x2048x1024 ((dat4 (V9 m ρ) c).arrAt 2 cfg4.N) shapeCasts_S4096x1024_S2x2048x1024 := by
  unfold W11
  after_results
  exact congrArg (fun A => shapeCast S2x2048x1024 A shapeCasts_S4096x1024_S2x2048x1024) (W10_arr m ρ c 2)

/-- The returned weights: no host operation after region 3 writes `main_v17_0`, and it is no array
    of region 4, so it ends as region 3 leaves its window 4. -/
theorem W11_v17_0 (c : Dev nD) :
    W11 m ρ c (Proc.devRef .tc main_v17_0) = (dat3 (V7 m ρ) c).arrAt 4 cfg3.N := by
  unfold W11
  after_results
  refine (W10_of_ne m ρ c main_v17_0 (by decide)).trans ?_
  unfold W9
  after_results
  exact W8_arr m ρ c 4

/-- Region 4's left operand: the stretch before it is one reshape, of the attention region's second
    result array (region 3's window 5, `main_v17_1`), [2,2048,1024] read as [4096,1024]. -/
theorem V9_v18 (c : Dev nD) :
    V9 m ρ c main_v18
      = shapeCast S4096x1024 ((dat3 (V7 m ρ) c).arrAt 5 cfg3.N) shapeCasts_S2x2048x1024_S4096x1024 := by
  unfold V9 W9
  after_results
  exact congrArg (fun A => shapeCast S4096x1024 A shapeCasts_S2x2048x1024_S4096x1024) (W8_arr m ρ c 5)

/-- Region 4's right operand: the first stretch writes `main_v7` — the output weight `main_arg7`
    transposed, then converted to bf16 — and nothing after writes it: no later host operation, and it is no
    array of regions 0–3. -/
theorem V9_v7 (c : Dev nD) :
    V9 m ρ c main_v7
      = truncf .bf16 (transpose S1024x1024 [1, 0] (m ((c.tc : Thread nD τ).loc main_arg7)) transposes_S1024x1024_S1024x1024_1_0) bitsLt_bf16_f32 := by
  unfold V9 W9
  after_results
  refine (W8_of_ne m ρ c main_v7 (by decide)).trans ?_
  unfold W7
  after_results
  refine (W6_of_ne m ρ c main_v7 (by decide)).trans ?_
  unfold W5
  after_results
  refine (W4_of_ne m ρ c main_v7 (by decide)).trans ?_
  unfold W3
  after_results
  refine (W2_of_ne m ρ c main_v7 (by decide)).trans ?_
  unfold W1
  after_results

/-- The attention region's query operand: the reshape, in the stretch after region 0, of region 0's
    result array (its window 2, `main_v9`), [4096,1024] read as [2,2048,1024]; untouched by regions 1, 2
    and the stretches between. -/
theorem V7_v10 (c : Dev nD) :
    V7 m ρ c main_v10
      = shapeCast S2x2048x1024 ((dat0 (V1 m ρ) c).arrAt 2 cfg0.N) shapeCasts_S4096x1024_S2x2048x1024 := by
  unfold V7 W7
  after_results
  refine (W6_of_ne m ρ c main_v10 (by decide)).trans ?_
  unfold W5
  after_results
  refine (W4_of_ne m ρ c main_v10 (by decide)).trans ?_
  unfold W3
  after_results
  exact congrArg (fun A => shapeCast S2x2048x1024 A shapeCasts_S4096x1024_S2x2048x1024) (W2_arr m ρ c 2)

/-- The attention region's key operand: likewise the reshape of region 1's result array
    (its window 2, `main_v12`). -/
theorem V7_v13 (c : Dev nD) :
    V7 m ρ c main_v13
      = shapeCast S2x2048x1024 ((dat1 (V3 m ρ) c).arrAt 2 cfg1.N) shapeCasts_S4096x1024_S2x2048x1024 := by
  unfold V7 W7
  after_results
  refine (W6_of_ne m ρ c main_v13 (by decide)).trans ?_
  unfold W5
  after_results
  exact congrArg (fun A => shapeCast S2x2048x1024 A shapeCasts_S4096x1024_S2x2048x1024) (W4_arr m ρ c 2)

/-- The attention region's value operand: the reshape, in the stretch just before, of region 2's
    result array (its window 2, `main_v15`). -/
theorem V7_v16 (c : Dev nD) :
    V7 m ρ c main_v16
      = shapeCast S2x2048x1024 ((dat2 (V5 m ρ) c).arrAt 2 cfg2.N) shapeCasts_S4096x1024_S2x2048x1024 := by
  unfold V7 W7
  after_results
  exact congrArg (fun A => shapeCast S2x2048x1024 A shapeCasts_S4096x1024_S2x2048x1024) (W6_arr m ρ c 2)

/-- The attention region's mask operand is the argument `main_arg3` as launched: nothing before
    region 3 writes it. -/
theorem V7_arg3 (c : Dev nD) :
    V7 m ρ c main_arg3 = m ((c.tc : Thread nD τ).loc main_arg3) := by
  unfold V7 W7
  after_results
  refine (W6_of_ne m ρ c main_arg3 (by decide)).trans ?_
  unfold W5
  after_results
  refine (W4_of_ne m ρ c main_arg3 (by decide)).trans ?_
  unfold W3
  after_results
  refine (W2_of_ne m ρ c main_arg3 (by decide)).trans ?_
  unfold W1
  after_results

/-- Region 0's left operand: the query input `main_arg0`, [2,2048,1024] read as [4096,1024]. -/
theorem V1_v8 (c : Dev nD) :
    V1 m ρ c main_v8
      = shapeCast S4096x1024 (m ((c.tc : Thread nD τ).loc main_arg0)) shapeCasts_S2x2048x1024_S4096x1024 := by
  unfold V1 W1
  after_results
  rfl

/-- Region 0's right operand: the query weight `main_arg4` transposed, then converted to bf16. -/
theorem V1_v1 (c : Dev nD) :
    V1 m ρ c main_v1
      = truncf .bf16 (transpose S1024x1024 [1, 0] (m ((c.tc : Thread nD τ).loc main_arg4)) transposes_S1024x1024_S1024x1024_1_0) bitsLt_bf16_f32 := by
  unfold V1 W1
  after_results

/-- Region 1's left operand: the key input `main_arg1`, [2,2048,1024] read as [4096,1024]
    (the reshape is in the stretch after region 0; the argument is as launched). -/
theorem V3_v11 (c : Dev nD) :
    V3 m ρ c main_v11
      = shapeCast S4096x1024 (m ((c.tc : Thread nD τ).loc main_arg1)) shapeCasts_S2x2048x1024_S4096x1024 := by
  unfold V3 W3
  after_results
  refine (congrArg (fun A => shapeCast S4096x1024 A shapeCasts_S2x2048x1024_S4096x1024) ?_ : _)
  refine (W2_of_ne m ρ c main_arg1 (by decide)).trans ?_
  unfold W1
  after_results

/-- Region 1's right operand: the key weight `main_arg5` transposed, then converted to bf16
    (written by the first stretch, untouched by region 0 and the stretch after it). -/
theorem V3_v3 (c : Dev nD) :
    V3 m ρ c main_v3
      = truncf .bf16 (transpose S1024x1024 [1, 0] (m ((c.tc : Thread nD τ).loc main_arg5)) transposes_S1024x1024_S1024x1024_1_0) bitsLt_bf16_f32 := by
  unfold V3 W3
  after_results
  refine (W2_of_ne m ρ c main_v3 (by decide)).trans ?_
  unfold W1
  after_results

/-- Region 2's left operand: the value input `main_arg2`, [2,2048,1024] read as [4096,1024]. -/
theorem V5_v14 (c : Dev nD) :
    V5 m ρ c main_v14
      = shapeCast S4096x1024 (m ((c.tc : Thread nD τ).loc main_arg2)) shapeCasts_S2x2048x1024_S4096x1024 := by
  unfold V5 W5
  after_results
  refine (congrArg (fun A => shapeCast S4096x1024 A shapeCasts_S2x2048x1024_S4096x1024) ?_ : _)
  refine (W4_of_ne m ρ c main_arg2 (by decide)).trans ?_
  unfold W3
  after_results
  refine (W2_of_ne m ρ c main_arg2 (by decide)).trans ?_
  unfold W1
  after_results

/-- Region 2's right operand: the value weight `main_arg6` transposed, then converted to bf16. -/
theorem V5_v5 (c : Dev nD) :
    V5 m ρ c main_v5
      = truncf .bf16 (transpose S1024x1024 [1, 0] (m ((c.tc : Thread nD τ).loc main_arg6)) transposes_S1024x1024_S1024x1024_1_0) bitsLt_bf16_f32 := by
  unfold V5 W5
  after_results
  refine (W4_of_ne m ρ c main_v5 (by decide)).trans ?_
  unfold W3
  after_results
  refine (W2_of_ne m ρ c main_v5 (by decide)).trans ?_
  unfold W1
  after_results

end Cert.KernelIdeal.Chain

end
-- ==== Proof.LibMaxRank4.lean ====
/- A host program's maximum along the last axis of an [n, m, a, b] stack, read at an index.

   Row (d, e, p) of the stack is the function k ↦ x (d, e, p, k); the reduction from an initial value z gives, at
   (d, e, p), the largest of z and the entries of that row: `maxFrom z` of the row. -/
import Idealize.ShloMosaic.Lib.Pipeline.Value
import Idealize.ShloMosaic.Lib.ValueIdx
import Idealize.ShloMosaic.PureOps.Ideal.Laws
import proofs.«155392_j63067299774603_2_alg».proof.Proof.LibRowSoftmax

noncomputable section

namespace Cert.LibMaxRank4

open Idealize.ShloMosaic Idealize.ShloMosaic.ValueIdx Cert.LibRowSoftmax

/-- Row (d, e, p) with position k put back is entry (d, e, p, k). -/
theorem lift_row4 {n m a b : ℕ} (h : (⟨4, ![n, m, a, b]⟩ : Shape).Reduces [3] ⟨3, ![n, m, a]⟩)
    (d : Fin n) (e : Fin m) (p : Fin a) (k : Fin b) :
    h.lift (ix3 d e p) k = ix4 d e p k :=
  funext fun c => Fin.ext (by match c with | ⟨0, _⟩ => rfl | ⟨1, _⟩ => rfl | ⟨2, _⟩ => rfl | ⟨3, _⟩ => rfl)

/-- The host's maximum along the last axis, at row (d, e, p): the largest of the initial value and the row's entries. -/
theorem hostReduce_max_row4 {n m a b : ℕ} {u : Shape} (x : (⟨4, ![n, m, a, b]⟩ : Shape).Idx → Ideal .f32)
    (init : u.Idx → Ideal .f32)
    (h' : (⟨4, ![n, m, a, b]⟩ : Shape).ReducesTo [3] ⟨3, ![n, m, a]⟩)
    (h : (⟨4, ![n, m, a, b]⟩ : Shape).Reduces [3] ⟨3, ![n, m, a]⟩)
    (hu : 0 < u.numel) (d : Fin n) (e : Fin m) (p : Fin a) :
    Host.reduce FloatOps.maximumf x init h' hu (ix3 d e p)
      = maxFrom (init (Shape.Idx.first hu)) (fun k => x (ix4 d e p k)) :=
  (Host.reduce_eq_fold_single FloatOps.maximumf x init h' h hu (ix3 d e p)).trans
    (congrArg (fun f => (Finset.univ : Finset (Fin b)).fold max (init (Shape.Idx.first hu)) f)
      (funext fun k => congrArg x (lift_row4 h d e p k)))

end Cert.LibMaxRank4

end
-- ==== Proof.RefAt.lean ====
/-
  The reference program's stages, read at an entry.

  The reference projects the three activations (x · wᵀ), cuts each projection into 16 heads of 64 features by a
  reshape and a transpose, takes the heads' score matrices divided by √64 plus the mask, the softmax of every score
  row (centred at the row's maximum), the weighted sums of the values, puts the heads back side by side and projects
  once more.  Read at an entry, each stage is the corresponding function of the specification: the projections are
  `proj`, the attention weights are `wts` of the projected queries and keys, the merged heads' outputs are `att`,
  and the last stage is a plain sum of products.
-/
import Idealize.ShloMosaic.Lib.ValueIdx
import Idealize.ShloMosaic.Lib.Pipeline.Value
import Idealize.ShloMosaic.PureOps.Ideal.Laws
import Idealize.ShloMosaic.Lib.ValueLayout
import proofs.«155392_j63067299774603_2_alg».proof.Proof.Gen.ReferenceIdeal.Read
import proofs.«155392_j63067299774603_2_alg».proof.Proof.Spec
import proofs.«155392_j63067299774603_2_alg».proof.Proof.LibRowSoftmax
import proofs.«155392_j63067299774603_2_alg».proof.Proof.LibMaxRank4

noncomputable section

namespace Cert.ReferenceIdeal.RefAt

open Cert.ReferenceIdeal Cert.ReferenceIdeal.Gen Cert.ReferenceIdeal.Read Cert.Attn Idealize.ShloMosaic Idealize.ShloMosaic.ValueIdx

/-! ## The projections -/

variable (x0 x1 x2 : (⟨S2x2048x1024, .f32⟩ : BufTy).Contents (Elt Ideal))
  (x3 : (⟨S2048x2048, .f32⟩ : BufTy).Contents (Elt Ideal))
  (x4 x5 x6 x7 : (⟨S1024x1024, .f32⟩ : BufTy).Contents (Elt Ideal))

/-- A projection's left operand is read at (b, s, k). -/
theorem lidx_v0 (b : Fin 2) (s : Fin 2048) (f k : Fin 1024) : lidx_main_v0 (ix3 b s f) k = ix3 b s k :=
  funext fun a => Fin.ext (by match a with | ⟨0, _⟩ => rfl | ⟨1, _⟩ => rfl | ⟨2, _⟩ => rfl)
/-- A projection's weight is read at (f, k). -/
theorem ridx_v0 (b : Fin 2) (s : Fin 2048) (f k : Fin 1024) : ridx_main_v0 (ix3 b s f) k = ix2 f k :=
  funext fun a => Fin.ext (by match a with | ⟨0, _⟩ => rfl | ⟨1, _⟩ => rfl)

/-- The query projection at (b, s, f). -/
theorem v0_at (b : Fin 2) (s : Fin 2048) (f : Fin 1024) :
    val_main_v0 (F := Ideal) x0 x4 (ix3 b s f) = proj (cur3 x0) (cur2 x4) b s f := by
  rw [val_main_v0_apply]
  unfold proj cur3 cur2
  refine Finset.sum_congr rfl fun k _ => ?_
  rw [lidx_v0, ridx_v0]

/-- The key projection at (b, s, f). -/
theorem v3_at (b : Fin 2) (s : Fin 2048) (f : Fin 1024) :
    val_main_v3 (F := Ideal) x1 x5 (ix3 b s f) = proj (cur3 x1) (cur2 x5) b s f := by
  rw [val_main_v3_apply]
  unfold proj cur3 cur2
  refine Finset.sum_congr rfl fun k _ => ?_
  rw [show lidx_main_v3 (ix3 b s f) k = ix3 b s k from lidx_v0 b s f k,
    show ridx_main_v3 (ix3 b s f) k = ix2 f k from ridx_v0 b s f k]

/-- The value projection at (b, s, f). -/
theorem v6_at (b : Fin 2) (s : Fin 2048) (f : Fin 1024) :
    val_main_v6 (F := Ideal) x2 x6 (ix3 b s f) = proj (cur3 x2) (cur2 x6) b s f := by
  rw [val_main_v6_apply]
  unfold proj cur3 cur2
  refine Finset.sum_congr rfl fun k _ => ?_
  rw [show lidx_main_v6 (ix3 b s f) k = ix3 b s k from lidx_v0 b s f k,
    show ridx_main_v6 (ix3 b s f) k = ix2 f k from ridx_v0 b s f k]

/-! ## The scale: dividing by √64 is multiplying by 1/8 -/

/-- The f32 word of 64.0 denotes 64. -/
theorem ofBits_64 : Ideal.ofBits .f32 0x42800000#32 = ((64 : ℝ) : EReal) := by
  simp [Ideal.ofBits, Ideal.ieee, -EReal.coe_mul]; norm_num

/-- The f32 word of 0.125 denotes 1/8. -/
theorem ofBits_eighth : Ideal.ofBits .f32 0x3E000000#32 = ((1 / 8 : ℝ) : EReal) := by
  simp [Ideal.ofBits, Ideal.ieee, -EReal.coe_mul]; norm_num

theorem sqrt_64 : Real.sqrt 64 = 8 := by
  rw [show (64 : ℝ) = 8 ^ 2 by norm_num]
  exact Real.sqrt_sq (by norm_num)

/-- Dividing by the square root of 64 is multiplying by 1/8, at the infinities too. -/
theorem div_sqrt_64 (x : EReal) :
    FloatOps.hostDivf (F := Ideal) (φ := .f32) x (FloatOps.hostUnary .sqrt (Ideal.ofBits .f32 0x42800000#32))
      = x * Ideal.ofBits .f32 0x3E000000#32 := by
  rw [Ideal.hostDivf_def, Ideal.hostUnary_sqrt_def, ofBits_64, ofBits_eighth, Ideal.sqrt_coe,
    if_neg (by norm_num), sqrt_64]
  exact Ideal.div_coe (by norm_num) x

/-! ## The scores -/

/-- Head h's query row i reads the query projection at (b, i, h·64 + d): the reshape into heads and the transpose
    undone. -/
theorem idx_q (b : Fin 2) (h : Fin 16) (i j : Fin 2048) (d : Fin 64) :
    idx_main_v1 (idx_main_v2 (lidx_main_v9 (ix4 b h i j) d)) = ix3 b i (hcol h d) :=
  funext fun a => Fin.ext (by
    have hb := b.isLt; have hh := h.isLt; have hi := i.isLt; have hd := d.isLt
    match a with
    | ⟨0, _⟩ => show (((b.val * 2048 + i.val) * 16 + h.val) * 64 + d.val) / 2097152 = b.val; omega
    | ⟨1, _⟩ => show (((b.val * 2048 + i.val) * 16 + h.val) * 64 + d.val) / 1024 % 2048 = i.val; omega
    | ⟨2, _⟩ => show (((b.val * 2048 + i.val) * 16 + h.val) * 64 + d.val) % 1024 = h.val * 64 + d.val; omega)

/-- Head h's key row j reads the key projection at (b, j, h·64 + d). -/
theorem idx_k (b : Fin 2) (h : Fin 16) (i j : Fin 2048) (d : Fin 64) :
    idx_main_v4 (idx_main_v5 (ridx_main_v9 (ix4 b h i j) d)) = ix3 b j (hcol h d) :=
  funext fun a => Fin.ext (by
    have hb := b.isLt; have hh := h.isLt; have hj := j.isLt; have hd := d.isLt
    match a with
    | ⟨0, _⟩ => show (((b.val * 2048 + j.val) * 16 + h.val) * 64 + d.val) / 2097152 = b.val; omega
    | ⟨1, _⟩ => show (((b.val * 2048 + j.val) * 16 + h.val) * 64 + d.val) / 1024 % 2048 = j.val; omega
    | ⟨2, _⟩ => show (((b.val * 2048 + j.val) * 16 + h.val) * 64 + d.val) % 1024 = h.val * 64 + d.val; omega)

/-- The mask, broadcast over batches and heads, is read at (i, j). -/
theorem idx_m (b : Fin 2) (h : Fin 16) (i j : Fin 2048) :
    idx_main_v13 (idx_main_v14 (ix4 b h i j)) = ix2 i j :=
  funext fun a => Fin.ext (by match a with | ⟨0, _⟩ => rfl | ⟨1, _⟩ => rfl)

/-- The scaled, masked scores at (b, h, i, j). -/
theorem v15_at (b : Fin 2) (h : Fin 16) (i j : Fin 2048) :
    val_main_v15 (F := Ideal) x0 x1 x3 x4 x5 (ix4 b h i j)
      = logit (cur3 (val_main_v0 (F := Ideal) x0 x4)) (cur3 (val_main_v3 (F := Ideal) x1 x5)) (curM x3) b h i j := by
  rw [val_main_v15_apply, val_main_v12_apply, val_main_v9_apply, val_main_v11_apply, val_main_v10_apply,
    val_main_cst_apply, val_main_v14_apply, val_main_v13_apply, idx_m]
  simp only [val_main_v2_apply, val_main_v1_apply, val_main_v5_apply, val_main_v4_apply, idx_q, idx_k]
  generalize val_main_v0 (F := Ideal) x0 x4 = Q
  generalize val_main_v3 (F := Ideal) x1 x5 = K
  rw [Ideal.ofBits_def, div_sqrt_64, Ideal.addf_def]
  rfl

/-! ## The row maxima, the exponentials and the quotient -/

/-- The row maximum at (b, h, i): the largest of -inf and the scores of the row. -/
theorem v18_at (b : Fin 2) (h : Fin 16) (i : Fin 2048) :
    val_main_v18 (F := Ideal) x0 x1 x3 x4 x5 (ix3 b h i)
      = Cert.LibRowSoftmax.maxFrom negInf (fun k : Fin 2048 => val_main_v15 (F := Ideal) x0 x1 x3 x4 x5 (ix4 b h i k)) := by
  rw [val_main_v18_apply, val_main_v17_apply, val_main_cst_1_apply]
  unfold val_main_v16
  generalize val_main_v15 (F := Ideal) x0 x1 x3 x4 x5 = y
  rw [Cert.LibMaxRank4.hostReduce_max_row4 y (val_main_cst_0 (F := Ideal)) reducesTo_S2x16x2048x2048_S2x16x2048_d3
    (by decide) h_S_ b h i]
  rw [val_main_cst_0_apply, Ideal.ofBits_def, Ideal.maximumf_def]
  exact Cert.LibRowSoftmax.max_maxFrom _ _

/-- A per-row statistic kept as a column and spread over the row reads, at (b, h, i, j), the statistic of row (b, h, i). -/
theorem idx_row (b : Fin 2) (h : Fin 16) (i j : Fin 2048) :
    idx_main_v19 (idx_main_v20 (ix4 b h i j)) = ix3 b h i :=
  funext fun a => Fin.ext (by match a with | ⟨0, _⟩ => rfl | ⟨1, _⟩ => rfl | ⟨2, _⟩ => rfl)
theorem idx_row' (b : Fin 2) (h : Fin 16) (i j : Fin 2048) :
    idx_main_v24 (idx_main_v25 (ix4 b h i j)) = ix3 b h i :=
  funext fun a => Fin.ext (by match a with | ⟨0, _⟩ => rfl | ⟨1, _⟩ => rfl | ⟨2, _⟩ => rfl)
/-- Position k of row (b, h, i). -/
theorem idx_sum (b : Fin 2) (h : Fin 16) (i k : Fin 2048) :
    idx_main_v23 (ix3 b h i) k = ix4 b h i k :=
  funext fun a => Fin.ext (by match a with | ⟨0, _⟩ => rfl | ⟨1, _⟩ => rfl | ⟨2, _⟩ => rfl | ⟨3, _⟩ => rfl)

/-- The exponential of a score centred at its row's maximum. -/
theorem v22_at (b : Fin 2) (h : Fin 16) (i j : Fin 2048) :
    val_main_v22 (F := Ideal) x0 x1 x3 x4 x5 (ix4 b h i j)
      = Ideal.exp (val_main_v15 (F := Ideal) x0 x1 x3 x4 x5 (ix4 b h i j)
          - Cert.LibRowSoftmax.maxFrom negInf (fun k : Fin 2048 => val_main_v15 (F := Ideal) x0 x1 x3 x4 x5 (ix4 b h i k))) := by
  rw [val_main_v22_apply, val_main_v21_apply, val_main_v20_apply, val_main_v19_apply, idx_row, v18_at,
    Ideal.hostUnary_exp_def, Ideal.subf_def]

/-- The attention weights at (b, h, i, j): the softmax of the score row. -/
theorem v26_at (b : Fin 2) (h : Fin 16) (i j : Fin 2048) :
    val_main_v26 (F := Ideal) x0 x1 x3 x4 x5 (ix4 b h i j)
      = wts (cur3 (val_main_v0 (F := Ideal) x0 x4)) (cur3 (val_main_v3 (F := Ideal) x1 x5)) (curM x3) b h i j := by
  rw [val_main_v26_apply, val_main_v25_apply, val_main_v24_apply, idx_row', val_main_v23_apply, val_main_cst_2_apply,
    Ideal.ofBits_def, Ideal.ofBits_zero_f32, zero_add, Ideal.hostDivf_def]
  simp only [idx_sum, v22_at, v15_at]
  unfold wts Cert.LibRowSoftmax.softmaxFrom
  generalize logit (cur3 (val_main_v0 (F := Ideal) x0 x4)) (cur3 (val_main_v3 (F := Ideal) x1 x5)) (curM x3) = L
  rfl

/-! ## The weighted sums of the values, the heads merged, and the output projection -/

/-- Feature f of the merged output is place f % 64 of head f / 64: the reshape and the transpose undone. -/
theorem idx_merge (b : Fin 2) (i : Fin 2048) (f : Fin 1024) :
    idx_main_v28 (idx_main_v29 (ix3 b i f)) = ix4 b (hd f) i (dp f) :=
  funext fun a => Fin.ext (by
    have hb := b.isLt; have hi := i.isLt; have hf := f.isLt
    match a with
    | ⟨0, _⟩ => show ((b.val * 2048 + i.val) * 1024 + f.val) / 2097152 = b.val; omega
    | ⟨1, _⟩ => show ((b.val * 2048 + i.val) * 1024 + f.val) / 64 % 16 = f.val / 64; omega
    | ⟨2, _⟩ => show ((b.val * 2048 + i.val) * 1024 + f.val) / 1024 % 2048 = i.val; omega
    | ⟨3, _⟩ => show ((b.val * 2048 + i.val) * 1024 + f.val) % 64 = f.val % 64; omega)

/-- The weights of row (b, h, i) at key k. -/
theorem idx_w (b : Fin 2) (h : Fin 16) (i k : Fin 2048) (d : Fin 64) :
    lidx_main_v27 (ix4 b h i d) k = ix4 b h i k :=
  funext fun a => Fin.ext (by match a with | ⟨0, _⟩ => rfl | ⟨1, _⟩ => rfl | ⟨2, _⟩ => rfl | ⟨3, _⟩ => rfl)

/-- Head h's value row k reads the value projection at (b, k, h·64 + d). -/
theorem idx_v (b : Fin 2) (h : Fin 16) (i k : Fin 2048) (d : Fin 64) :
    idx_main_v7 (idx_main_v8 (ridx_main_v27 (ix4 b h i d) k)) = ix3 b k (hcol h d) :=
  funext fun a => Fin.ext (by
    have hb := b.isLt; have hh := h.isLt; have hk := k.isLt; have hd := d.isLt
    match a with
    | ⟨0, _⟩ => show (((b.val * 2048 + k.val) * 16 + h.val) * 64 + d.val) / 2097152 = b.val; omega
    | ⟨1, _⟩ => show (((b.val * 2048 + k.val) * 16 + h.val) * 64 + d.val) / 1024 % 2048 = k.val; omega
    | ⟨2, _⟩ => show (((b.val * 2048 + k.val) * 16 + h.val) * 64 + d.val) % 1024 = h.val * 64 + d.val; omega)

/-- The merged heads' outputs at (b, i, f). -/
theorem v29_at (b : Fin 2) (i : Fin 2048) (f : Fin 1024) :
    val_main_v29 (F := Ideal) x0 x1 x2 x3 x4 x5 x6 (ix3 b i f)
      = att (cur3 (val_main_v0 (F := Ideal) x0 x4)) (cur3 (val_main_v3 (F := Ideal) x1 x5))
          (cur3 (val_main_v6 (F := Ideal) x2 x6)) (curM x3) b i f := by
  rw [val_main_v29_apply, val_main_v28_apply, idx_merge, val_main_v27_apply]
  unfold att
  refine Finset.sum_congr rfl fun k _ => ?_
  rw [idx_w, v26_at, val_main_v8_apply, val_main_v7_apply, idx_v, hcol_hd_dp]
  generalize val_main_v6 (F := Ideal) x2 x6 = V
  rfl

/-- The output projection at (b, s, f). -/
theorem v30_at (b : Fin 2) (s : Fin 2048) (f : Fin 1024) :
    val_main_v30 (F := Ideal) x0 x1 x2 x3 x4 x5 x6 x7 (ix3 b s f)
      = ∑ k : Fin 1024, val_main_v29 (F := Ideal) x0 x1 x2 x3 x4 x5 x6 (ix3 b s k) * x7 (ix2 f k) := by
  rw [val_main_v30_apply]
  refine Finset.sum_congr rfl fun k _ => ?_
  rw [show lidx_main_v30 (ix3 b s f) k = ix3 b s k from lidx_v0 b s f k,
    show ridx_main_v30 (ix3 b s f) k = ix2 f k from ridx_v0 b s f k]

end Cert.ReferenceIdeal.RefAt

end
-- ==== Proof.ProjLayout.lean ====
/-
  The host lines around the kernel's projections, read at an entry.

  Before each projection the [2, 2048, 1024] activation is re-laid as a [4096, 1024] matrix, row b·2048 + s
  holding position s of batch b, and the weight is transposed (and narrowed to bf16, the identity on the extended
  reals); after it the [4096, 1024] product is re-laid as [2, 2048, 1024].  Read at an entry, the re-laid
  activation at (b·2048 + s, k) is the activation at (b, s, k), the transposed weight at (k, f) is the weight at
  (f, k), and so the product's row b·2048 + s is the specification's `proj` at (b, s, ·).
-/
import Idealize.ShloMosaic.Lib.ValueIdx
import Idealize.ShloMosaic.Lib.Pipeline.Value
import Idealize.ShloMosaic.PureOps.Ideal.Laws
import proofs.«155392_j63067299774603_2_alg».proof.KernelIdeal
import proofs.«155392_j63067299774603_2_alg».proof.Proof.Spec

noncomputable section

namespace Cert.KernelIdeal.ProjLayout

open Cert.KernelIdeal Cert.Attn Idealize.ShloMosaic Idealize.ShloMosaic.ValueIdx

variable [Facts₀]
open Facts₀

/-- The row of the [4096, 1024] matrix that holds position s of batch b. -/
def row (b : Fin 2) (s : Fin 2048) : Fin 4096 :=
  ⟨b.val * 2048 + s.val, by have := b.isLt; have := s.isLt; omega⟩

/-- The activation re-laid as a matrix, at (row b s, k), is the activation at (b, s, k). -/
theorem rows_at {α : Type} (x : S2x2048x1024.Idx → α) (b : Fin 2) (s : Fin 2048) (k : Fin 1024) :
    shapeCast S4096x1024 x shapeCasts_S2x2048x1024_S4096x1024 (ix2 (row b s) k) = x (ix3 b s k) :=
  shapeCast_apply x shapeCasts_S2x2048x1024_S4096x1024 (ix2 (row b s) k) (ix3 b s k) (by
    rewrite [Shape.rowMajor_val_three, Shape.rowMajor_val_two]
    show (b.val * 2048 + s.val) * 1024 + k.val = (b.val * 2048 + s.val) * 1024 + k.val
    rfl)

/-- A matrix re-laid as [2, 2048, 1024], at (b, s, f), is the matrix at (row b s, f). -/
theorem unrows_at {α : Type} (y : S4096x1024.Idx → α) (b : Fin 2) (s : Fin 2048) (f : Fin 1024) :
    shapeCast S2x2048x1024 y shapeCasts_S4096x1024_S2x2048x1024 (ix3 b s f) = y (ix2 (row b s) f) :=
  shapeCast_apply y shapeCasts_S4096x1024_S2x2048x1024 (ix3 b s f) (ix2 (row b s) f) (by
    rewrite [Shape.rowMajor_val_two, Shape.rowMajor_val_three]
    show (b.val * 2048 + s.val) * 1024 + f.val = (b.val * 2048 + s.val) * 1024 + f.val
    rfl)

/-- The transposed weight (narrowed to bf16: the identity on the extended reals) at (k, f) is the weight at (f, k). -/
theorem wT_at (w : FVec Ideal S1024x1024 .f32) (k f : Fin 1024) :
    (truncf .bf16 (transpose S1024x1024 [1, 0] w transposes_S1024x1024_S1024x1024_1_0) bitsLt_bf16_f32
      : FVec Ideal S1024x1024 .bf16) (ix2 k f) = w (ix2 f k) :=
  (truncf_apply (transpose S1024x1024 [1, 0] w transposes_S1024x1024_S1024x1024_1_0) bitsLt_bf16_f32 (ix2 k f)).trans
    (transpose_apply [1, 0] w transposes_S1024x1024_S1024x1024_1_0 (ix2 k f) (ix2 f k) (fun b => match b with
      | ⟨0, _⟩ => rfl
      | ⟨1, _⟩ => rfl))

/-- The product of the re-laid activation's row (b, s) with column f of the transposed weight is the projection
    at (b, s, f). -/
theorem proj_rows (x : FVec Ideal S2x2048x1024 .f32) (w : FVec Ideal S1024x1024 .f32) (b : Fin 2) (s : Fin 2048)
    (f : Fin 1024) :
    (∑ k : Fin 1024, shapeCast S4096x1024 x shapeCasts_S2x2048x1024_S4096x1024 (ix2 (row b s) k)
        * (truncf .bf16 (transpose S1024x1024 [1, 0] w transposes_S1024x1024_S1024x1024_1_0) bitsLt_bf16_f32
            : FVec Ideal S1024x1024 .bf16) (ix2 k f))
      = proj (cur3 x) (cur2 w) b s f := by
  unfold proj cur3 cur2
  exact Finset.sum_congr rfl fun k _ => by rw [rows_at, wT_at]

end Cert.KernelIdeal.ProjLayout

end
-- ==== Proof.Bridge.lean ====
/-
  The idealized kernel's two result buffers are the reference's stages of the launch arguments.

  The kernel computes multi-head attention in five pipelined regions joined by host operations; the reference
  is the same computation written as plain array operations.  Both are read here at an entry, over the extended
  reals.

  * Each of the three input projections: the region's result array at row b·2048 + s, column f, is
    Σ_k x(b·2048 + s, k) · wᵀ(k, f), its operands being the re-laid activation and the transposed weight;
    re-laid as [2, 2048, 1024] this is the specification's `proj` at (b, s, f), which is what the reference's
    projection is at that entry.  So the attention region's query, key and value operands are the reference's
    three projections (`q_eq`, `k_eq`, `v_eq`), and its mask operand is the mask argument.
  * The attention region's first result array is `wts` of its operands, entry by entry, and so is the
    reference's softmax stage of the same projections: the returned weights agree (`weights_eq`).
  * Its second result array is `att` of its operands, as is the reference's merged heads' output (`attn_eq`).
  * The output projection's result array at (b·2048 + s, f) is Σ_k a(b·2048 + s, k) · w₇ᵀ(k, f) with a the
    re-laid second result; re-laid back, this is Σ_k attn(b, s, k) · w₇(f, k), the reference's last stage at
    (b, s, f): the returned outputs agree (`out_eq`).
-/
import Idealize.ShloMosaic.Lib.ValueIdx
import Idealize.ShloMosaic.Lib.Pipeline.Value
import Idealize.ShloMosaic.PureOps.Ideal.Laws
import proofs.«155392_j63067299774603_2_alg».proof.Proof.Gen.KernelIdeal.Frame
import proofs.«155392_j63067299774603_2_alg».proof.Proof.Gen.ReferenceIdeal.Read
import proofs.«155392_j63067299774603_2_alg».proof.Proof.Spec
import proofs.«155392_j63067299774603_2_alg».proof.Proof.Chain
import proofs.«155392_j63067299774603_2_alg».proof.Proof.RefAt
import proofs.«155392_j63067299774603_2_alg».proof.Proof.ProjLayout
import proofs.«155392_j63067299774603_2_alg».proof.Proof.LinearAt
import proofs.«155392_j63067299774603_2_alg».proof.Proof.AttnAt

set_option maxRecDepth 16384

noncomputable section

open scoped BigOperators

namespace Cert.Bridge

open Cert.KernelIdeal Cert.KernelIdeal.Gen Cert.Attn
open Idealize.ShloMosaic Idealize.ShloMosaic.TcCoe Idealize.ShloMosaic.ValueIdx
open Cert.KernelIdeal.ProjLayout Cert.KernelIdeal.LinearAt Cert.KernelIdeal.AttnAt
open Cert.ReferenceIdeal.Read Cert.ReferenceIdeal.RefAt

variable (m : (ℓ : Loc nD τ sig) → Buf (Elt Ideal) ℓ) (ρ : Dev nD → PrngReg) (c : Dev nD)

/-- The attention region's query operand is the reference's query projection. -/
theorem q_eq : Gen.V7 m ρ c main_v10
    = val_main_v0 (F := Ideal) (m ((c.tc : Thread nD τ).loc main_arg0)) (m ((c.tc : Thread nD τ).loc main_arg4)) := by
  funext i
  obtain ⟨b, s, f, rfl⟩ : ∃ (b : Fin 2) (s : Fin 2048) (f : Fin 1024), i = ix3 b s f := ⟨i 0, i 1, i 2, eq_ix3 i⟩
  rw [Chain.V7_v10, unrows_at, arr0_at (Gen.V1 m ρ) c, Chain.V1_v8, Chain.V1_v1, proj_rows, v0_at]

/-- The attention region's key operand is the reference's key projection. -/
theorem k_eq : Gen.V7 m ρ c main_v13
    = val_main_v3 (F := Ideal) (m ((c.tc : Thread nD τ).loc main_arg1)) (m ((c.tc : Thread nD τ).loc main_arg5)) := by
  funext i
  obtain ⟨b, s, f, rfl⟩ : ∃ (b : Fin 2) (s : Fin 2048) (f : Fin 1024), i = ix3 b s f := ⟨i 0, i 1, i 2, eq_ix3 i⟩
  rw [Chain.V7_v13, unrows_at, arr1_at (Gen.V3 m ρ) c, Chain.V3_v11, Chain.V3_v3, proj_rows, v3_at]

/-- The attention region's value operand is the reference's value projection. -/
theorem v_eq : Gen.V7 m ρ c main_v16
    = val_main_v6 (F := Ideal) (m ((c.tc : Thread nD τ).loc main_arg2)) (m ((c.tc : Thread nD τ).loc main_arg6)) := by
  funext i
  obtain ⟨b, s, f, rfl⟩ : ∃ (b : Fin 2) (s : Fin 2048) (f : Fin 1024), i = ix3 b s f := ⟨i 0, i 1, i 2, eq_ix3 i⟩
  rw [Chain.V7_v16, unrows_at, arr2_at (Gen.V5 m ρ) c, Chain.V5_v14, Chain.V5_v5, proj_rows, v6_at]

/-- The returned attention weights are the reference's. -/
theorem weights_eq : Gen.W11 m ρ c (Proc.devRef .tc main_v17_0)
    = val_main_v26 (F := Ideal) (m ((c.tc : Thread nD τ).loc main_arg0)) (m ((c.tc : Thread nD τ).loc main_arg1))
        (m ((c.tc : Thread nD τ).loc main_arg3)) (m ((c.tc : Thread nD τ).loc main_arg4)) (m ((c.tc : Thread nD τ).loc main_arg5)) := by
  rw [Chain.W11_v17_0]
  funext i
  obtain ⟨b, h, q, j, rfl⟩ : ∃ (b : Fin 2) (h : Fin 16) (q j : Fin 2048), i = ix4 b h q j := ⟨i 0, i 1, i 2, i 3, eq_ix4 i⟩
  rw [w_at (Gen.V7 m ρ) c, q_eq m ρ c, k_eq m ρ c, Chain.V7_arg3, v26_at]

/-- The attention region's second result, entry by entry, is the reference's merged heads' output. -/
theorem attn_eq (b : Fin 2) (i : Fin 2048) (f : Fin 1024) :
    ((dat3 (F := Ideal) (Gen.V7 m ρ) c).arrAt 5 cfg3.N (ix3 b i f) : EReal)
      = val_main_v29 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (ix3 b i f) := by
  rw [a_at (Gen.V7 m ρ) c, q_eq m ρ c, k_eq m ρ c, v_eq m ρ c, Chain.V7_arg3, v29_at]

/-- The returned output is the reference's. -/
theorem out_eq : Gen.W11 m ρ c (Proc.devRef .tc main_v20)
    = val_main_v30 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) := by
  rw [Chain.W11_v20]
  funext i
  obtain ⟨b, s, f, rfl⟩ : ∃ (b : Fin 2) (s : Fin 2048) (f : Fin 1024), i = ix3 b s f := ⟨i 0, i 1, i 2, eq_ix3 i⟩
  rw [unrows_at, arr4_at (Gen.V9 m ρ) c, v30_at]
  refine Finset.sum_congr (M := EReal) rfl fun k _ => ?_
  rw [Chain.V9_v18, rows_at, attn_eq m ρ c, Chain.V9_v7, wT_at]

end Cert.Bridge

end
-- ==== Proof.lean ====
/-
  Multi-head attention as five tiled kernels against the plain formula: the certificate's claims.

  The kernel projects q, k, v with transposed weights (three row-blocked matrix products), runs one attention kernel
  over (query tile, batch, head pair) that returns the softmax weights of every head and the heads' weighted sums of
  the values side by side, and projects the result (a fourth matrix product).  The reference computes the same
  quantities with whole-array einsums, a reshape and transpose into heads, scores divided by √64, the library
  softmax, and the inverse reshape.

  At the exact reading (floats as extended reals, format changes the identity) both programs compute ONE function of
  the arguments: every matrix product contracts the same index set in both (no sum is regrouped), a row's softmax is
  taken over the same 2048 keys, and the one place where the texts differ in arithmetic is the scale, x · (1/8) against
  x / √64, equal on every extended real.  The rest is layout: a tile entry is the whole-array entry at the tile's
  place, and the tiles fill the arrays.

  * the three frames: the two kernel programs' are the generated frame certificates; the reference's is its run with
    the results dropped;
  * `preserves`: the idealization rewrote no operation, the conjunct is `True`;
  * `algebraic`: the kernel's run with its two result buffers read off the final state (`RunNamed`), those buffers
    read back through the host lines to the regions' output arrays (`Chain`), the arrays entry by entry (`LinearAt`,
    `AttnAt`), and the reference's stages entry by entry (`RefAt`), joined in `Bridge`.
-/
import proofs.«155392_j63067299774603_2_alg».proof.Defs
import proofs.«155392_j63067299774603_2_alg».proof.Proof.Gen.Kernel
import proofs.«155392_j63067299774603_2_alg».proof.Proof.Gen.Kernel.Frame
import proofs.«155392_j63067299774603_2_alg».proof.Proof.Gen.KernelIdeal
import proofs.«155392_j63067299774603_2_alg».proof.Proof.Gen.KernelIdeal.Frame
import proofs.«155392_j63067299774603_2_alg».proof.Proof.Gen.ReferenceIdeal
import proofs.«155392_j63067299774603_2_alg».proof.Proof.Gen.ReferenceIdeal.Run
import proofs.«155392_j63067299774603_2_alg».proof.Proof.Gen.ReferenceIdeal.Read
import proofs.«155392_j63067299774603_2_alg».proof.Proof.Gen.Pre_finite_inputs
import proofs.«155392_j63067299774603_2_alg».proof.Proof.RunNamed
import proofs.«155392_j63067299774603_2_alg».proof.Proof.LinearAt
import proofs.«155392_j63067299774603_2_alg».proof.Proof.AttnAt
import proofs.«155392_j63067299774603_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the eight arguments both programs end with the output projection and the attention
    weights of the Spec's formula: the kernel by its run and the bridge, the reference by its run and its stages. -/
theorem algebraic : Cert.algebraic_KernelIdeal_ReferenceIdeal := by
  intro m ρ m' ρ' _ hagree
  refine ⟨fun c => Cert.ReferenceIdeal.Read.val_main_v30 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    fun c => Cert.ReferenceIdeal.Read.val_main_v26 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.RunNamed.run_named (F := Ideal) m ρ)
    obtain ⟨h20, h17, hargs⟩ := h c
    exact ⟨h20.trans (Cert.Bridge.out_eq m ρ c), h17.trans (Cert.Bridge.weights_eq m ρ c), hargs⟩
  · refine (θ_run Cert.ReferenceIdeal.defs _ _).mono (fun r h c => ?_) (Cert.ReferenceIdeal.Value.run (F := Ideal) m' ρ')
    obtain ⟨h30, h26, hargs⟩ := h c
    obtain ⟨a0, a1, a2, a3, a4, a5, a6, a7⟩ := hagree c
    refine ⟨h30.trans ?_, h26.trans ?_, hargs⟩
    · rw [Cert.ReferenceIdeal.Read.val_main_v30_eq, a0, a1, a2, a3, a4, a5, a6, a7]
    · rw [Cert.ReferenceIdeal.Read.val_main_v26_eq, a0, a1, a3, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
